-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512 : Shape := ⟨1, ![512]⟩
abbrev S30000x512 : Shape := ⟨2, ![30000, 512]⟩
abbrev S30000 : Shape := ⟨1, ![30000]⟩
abbrev S30000x4x512 : Shape := ⟨3, ![30000, 4, 512]⟩
abbrev S30000x4 : Shape := ⟨2, ![30000, 4]⟩
abbrev S4 : Shape := ⟨1, ![4]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S30000x512 : S_.BroadcastsInDim S30000x512 (![] : Fin 0 → Fin S30000x512.rank)
  reducesTo_S30000x512_S_d0_1 : S30000x512.ReducesTo [0, 1] S_
  bcast_S_S30000 : S_.BroadcastsInDim S30000 (![] : Fin 0 → Fin S30000.rank)
  reducesTo_S30000_S_d0 : S30000.ReducesTo [0] S_
  bcast_S_S30000x4x512 : S_.BroadcastsInDim S30000x4x512 (![] : Fin 0 → Fin S30000x4x512.rank)
  reducesTo_S30000x4x512_S_d0_1_2 : S30000x4x512.ReducesTo [0, 1, 2] S_
  bcast_S_S30000x4 : S_.BroadcastsInDim S30000x4 (![] : Fin 0 → Fin S30000x4.rank)
  reducesTo_S30000x4_S_d0_1 : S30000x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4 .f32) (main_arg8 : FVec F S30000 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S30000 .f32 := Host.absf main_arg8
  let main_cst_14 : FVec F S_ .f32 := constant S_ .f32 0x7F800000#32
  let main_v40 : FVec F S30000 .f32 := broadcastInDim S30000 ![] bcast_S_S30000 main_cst_14
  let main_v41 : IVec S30000 1 := cmpf .olt main_v39 main_v40
  let main_c_15 : IVec S_ 1 := constantI S_ 1 1#1
  let main_v42 : IVec S_ 1 := (fun x v => Host.reduce IntOp.andi x v reducesTo_S30000_S_d0 h_S_) main_v41 main_c_15
  let main_v43 : IVec S_ 1 := andi main_v38 main_v42
  main_v43

def fn_part1 {F : FTy → Type} [FloatOps F] (main_arg4 : FVec F S30000x4x512 .f32) (main_arg5 : FVec F S30000x4 .f32) (main_arg6 : FVec F S30000x4 .f32) (main_arg7 : FVec F S4 .f32) (main_arg8 : FVec F S30000 .f32) (main_v13 : IVec S_ 1) (main_v16 : IVec S30000 1) : IVec S_ 1 :=
  let main_c_5 : IVec S_ 1 := constantI S_ 1 1#1
  let main_v17 : IVec S_ 1 := (fun x v => Host.reduce IntOp.andi x v reducesTo_S30000_S_d0 h_S_) main_v16 main_c_5
  let main_v18 : IVec S_ 1 := andi main_v13 main_v17
  let main_v19 : FVec F S30000x4x512 .f32 := Host.absf main_arg4
  let main_cst_6 : FVec F S_ .f32 := constant S_ .f32 0x7F800000#32
  let main_v20 : FVec F S30000x4x512 .f32 := broadcastInDim S30000x4x512 ![] bcast_S_S30000x4x512 main_cst_6
  let main_v21 : IVec S30000x4x512 1 := cmpf .olt main_v19 main_v20
  let main_c_7 : IVec S_ 1 := constantI S_ 1 1#1
  let main_v22 : IVec S_ 1 := (fun x v => Host.reduce IntOp.andi x v reducesTo_S30000x4x512_S_d0_1_2 h_S_) main_v21 main_c_7
  let main_v23 : IVec S_ 1 := andi main_v18 main_v22
  let main_v24 : FVec F S30000x4 .f32 := Host.absf main_arg5
  let main_cst_8 : FVec F S_ .f32 := constant S_ .f32 0x7F800000#32
  let main_v25 : FVec F S30000x4 .f32 := broadcastInDim S30000x4 ![] bcast_S_S30000x4 main_cst_8
  let main_v26 : IVec S30000x4 1 := cmpf .olt main_v24 main_v25
  let main_c_9 : IVec S_ 1 := constantI S_ 1 1#1
  let main_v27 : IVec S_ 1 := (fun x v => Host.reduce IntOp.andi x v reducesTo_S30000x4_S_d0_1 h_S_) main_v26 main_c_9
  let main_v28 : IVec S_ 1 := andi main_v23 main_v27
  let main_v29 : FVec F S30000x4 .f32 := Host.absf main_arg6
  let main_cst_10 : FVec F S_ .f32 := constant S_ .f32 0x7F800000#32
  let main_v30 : FVec F S30000x4 .f32 := broadcastInDim S30000x4 ![] bcast_S_S30000x4 main_cst_10
  let main_v31 : IVec S30000x4 1 := cmpf .olt main_v29 main_v30
  let main_c_11 : IVec S_ 1 := constantI S_ 1 1#1
  let main_v32 : IVec S_ 1 := (fun x v => Host.reduce IntOp.andi x v reducesTo_S30000x4_S_d0_1 h_S_) main_v31 main_c_11
  let main_v33 : IVec S_ 1 := andi main_v28 main_v32
  fn_part2 (F := F) main_arg7 main_arg8 main_v33

def fn {F : FTy → Type} [FloatOps F] (main_arg0 : FVec F S512 .f32) (main_arg1 : FVec F S30000x512 .f32) (main_arg2 : FVec F S30000 .f32) (main_arg3 : FVec F S30000 .f32) (main_arg4 : FVec F S30000x4x512 .f32) (main_arg5 : FVec F S30000x4 .f32) (main_arg6 : FVec F S30000x4 .f32) (main_arg7 : FVec F S4 .f32) (main_arg8 : FVec F S30000 .f32) : IVec S_ 1 :=
  let main_v0 : FVec F S512 .f32 := Host.absf main_arg0
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S30000x512 .f32 := Host.absf main_arg1
  let main_cst_0 : FVec F S_ .f32 := constant S_ .f32 0x7F800000#32
  let main_v5 : FVec F S30000x512 .f32 := broadcastInDim S30000x512 ![] bcast_S_S30000x512 main_cst_0
  let main_v6 : IVec S30000x512 1 := cmpf .olt main_v4 main_v5
  let main_c_1 : IVec S_ 1 := constantI S_ 1 1#1
  let main_v7 : IVec S_ 1 := (fun x v => Host.reduce IntOp.andi x v reducesTo_S30000x512_S_d0_1 h_S_) main_v6 main_c_1
  let main_v8 : IVec S_ 1 := andi main_v3 main_v7
  let main_v9 : FVec F S30000 .f32 := Host.absf main_arg2
  let main_cst_2 : FVec F S_ .f32 := constant S_ .f32 0x7F800000#32
  let main_v10 : FVec F S30000 .f32 := broadcastInDim S30000 ![] bcast_S_S30000 main_cst_2
  let main_v11 : IVec S30000 1 := cmpf .olt main_v9 main_v10
  let main_c_3 : IVec S_ 1 := constantI S_ 1 1#1
  let main_v12 : IVec S_ 1 := (fun x v => Host.reduce IntOp.andi x v reducesTo_S30000_S_d0 h_S_) main_v11 main_c_3
  let main_v13 : IVec S_ 1 := andi main_v8 main_v12
  let main_v14 : FVec F S30000 .f32 := Host.absf main_arg3
  let main_cst_4 : FVec F S_ .f32 := constant S_ .f32 0x7F800000#32
  let main_v15 : FVec F S30000 .f32 := broadcastInDim S30000 ![] bcast_S_S30000 main_cst_4
  let main_v16 : IVec S30000 1 := cmpf .olt main_v14 main_v15
  fn_part1 (F := F) main_arg4 main_arg5 main_arg6 main_arg7 main_arg8 main_v13 main_v16
-- ==== Kernel.lean ====
abbrev S512 : Shape := ⟨1, ![512]⟩
abbrev S30000x512 : Shape := ⟨2, ![30000, 512]⟩
abbrev S30000 : Shape := ⟨1, ![30000]⟩
abbrev S30000x4x512 : Shape := ⟨3, ![30000, 4, 512]⟩
abbrev S30000x4 : Shape := ⟨2, ![30000, 4]⟩
abbrev S4 : Shape := ⟨1, ![4]⟩
abbrev S1x512 : Shape := ⟨2, ![1, 512]⟩
abbrev S30000x2048 : Shape := ⟨2, ![30000, 2048]⟩
abbrev S30000x1 : Shape := ⟨2, ![30000, 1]⟩
abbrev S30000x3 : Shape := ⟨2, ![30000, 3]⟩
abbrev S_ : Shape := ⟨0, ![]⟩
abbrev S4x1 : Shape := ⟨2, ![4, 1]⟩
abbrev S4x512 : Shape := ⟨2, ![4, 512]⟩
abbrev S8x512 : Shape := ⟨2, ![8, 512]⟩
abbrev S1200x512 : Shape := ⟨2, ![1200, 512]⟩
abbrev S1200x3 : Shape := ⟨2, ![1200, 3]⟩
abbrev S1200x2048 : Shape := ⟨2, ![1200, 2048]⟩
abbrev S1200x4 : Shape := ⟨2, ![1200, 4]⟩
abbrev S1200x1 : Shape := ⟨2, ![1200, 1]⟩
abbrev S1200x8 : Shape := ⟨2, ![1200, 8]⟩

abbrev nBuf : Space → Nat
  | .hbm => 35
  | .vmem => 14
  | .smem => 0
  | _ => 0

abbrev bufTy : (tb : Table) → Fin (tcTables nBuf tb) → BufTy
  | .hbm, ⟨0, _⟩ => ⟨S512, .f32⟩
  | .hbm, ⟨1, _⟩ => ⟨S30000x512, .f32⟩
  | .hbm, ⟨2, _⟩ => ⟨S30000, .f32⟩
  | .hbm, ⟨3, _⟩ => ⟨S30000, .f32⟩
  | .hbm, ⟨4, _⟩ => ⟨S30000x4x512, .f32⟩
  | .hbm, ⟨5, _⟩ => ⟨S30000x4, .f32⟩
  | .hbm, ⟨6, _⟩ => ⟨S30000x4, .f32⟩
  | .hbm, ⟨7, _⟩ => ⟨S4, .f32⟩
  | .hbm, ⟨8, _⟩ => ⟨S30000, .f32⟩
  | .hbm, ⟨9, _⟩ => ⟨S1x512, .f32⟩
  | .hbm, ⟨10, _⟩ => ⟨S30000x2048, .f32⟩
  | .hbm, ⟨11, _⟩ => ⟨S30000x1, .f32⟩
  | .hbm, ⟨12, _⟩ => ⟨S30000x1, .f32⟩
  | .hbm, ⟨13, _⟩ => ⟨S30000x1, .f32⟩
  | .hbm, ⟨14, _⟩ => ⟨S30000x3, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S4x1, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S8x512, .f32⟩
  | .hbm, ⟨34, _⟩ => ⟨S30000x512, .f32⟩
  | .local _ .vmem, ⟨0, _⟩ => ⟨S1x512, .f32⟩
  | .local _ .vmem, ⟨1, _⟩ => ⟨S1200x512, .f32⟩
  | .local _ .vmem, ⟨2, _⟩ => ⟨S1200x512, .f32⟩
  | .local _ .vmem, ⟨3, _⟩ => ⟨S1200x3, .f32⟩
  | .local _ .vmem, ⟨4, _⟩ => ⟨S1200x3, .f32⟩
  | .local _ .vmem, ⟨5, _⟩ => ⟨S1200x2048, .f32⟩
  | .local _ .vmem, ⟨6, _⟩ => ⟨S1200x2048, .f32⟩
  | .local _ .vmem, ⟨7, _⟩ => ⟨S1200x4, .f32⟩
  | .local _ .vmem, ⟨8, _⟩ => ⟨S1200x4, .f32⟩
  | .local _ .vmem, ⟨9, _⟩ => ⟨S1200x4, .f32⟩
  | .local _ .vmem, ⟨10, _⟩ => ⟨S1200x4, .f32⟩
  | .local _ .vmem, ⟨11, _⟩ => ⟨S8x512, .f32⟩
  | .local _ .vmem, ⟨12, _⟩ => ⟨S1200x512, .f32⟩
  | .local _ .vmem, ⟨13, _⟩ => ⟨S1200x512, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1200x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1200x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1200x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1200x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1200x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  shapeCasts_S30000x4x512_S30000x2048 : S30000x4x512.ShapeCasts S30000x2048
  bcast_S30000_S30000x1_0 : S30000.BroadcastsInDim S30000x1 (![0] : Fin 1 → Fin S30000x1.rank)
  concatenates_S30000x1_S30000x1_S30000x1_S30000x3_d1 : Shape.Concatenates [S30000x1, S30000x1, S30000x1] S30000x3 1
  bcast_S_S4 : S_.BroadcastsInDim S4 (![] : Fin 0 → Fin S4.rank)
  bcast_S512_S1x512_1 : S512.BroadcastsInDim S1x512 (![1] : Fin 1 → Fin S1x512.rank)
  bcast_S_S1x512 : S_.BroadcastsInDim S1x512 (![] : Fin 0 → Fin S1x512.rank)
  bcast_S4_S4x1_0 : S4.BroadcastsInDim S4x1 (![0] : Fin 1 → Fin S4x1.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  concatenates_S4x512_S4x512_S8x512_d0 : Shape.Concatenates [S4x512, S4x512] S8x512 0
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1200x512_S1200x512_0_0 : ∀ a, (![0, 0] : Fin 2 → Nat) a + S1200x512.size a ≤ S1200x512.size a
  h_S1200x512 : 0 < S1200x512.numel
  inb_S1200x3_S1200x3_0_0 : ∀ a, (![0, 0] : Fin 2 → Nat) a + S1200x3.size a ≤ S1200x3.size a
  h_S1200x3 : 0 < S1200x3.numel
  shapeCasts_S1200x3_S1200x3 : S1200x3.ShapeCasts S1200x3
  inb_S1200x2048_S1200x2048_0_0 : ∀ a, (![0, 0] : Fin 2 → Nat) a + S1200x2048.size a ≤ S1200x2048.size a
  h_S1200x2048 : 0 < S1200x2048.numel
  shapeCasts_S1200x2048_S1200x2048 : S1200x2048.ShapeCasts S1200x2048
  inb_S1200x4_S1200x4_0_0 : ∀ a, (![0, 0] : Fin 2 → Nat) a + S1200x4.size a ≤ S1200x4.size a
  h_S1200x4 : 0 < S1200x4.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S1200x3_o0_0_S1200x1 : S1200x3.Slices ![0, 0] S1200x1
  slices_S1200x3_o0_1_S1200x1 : S1200x3.Slices ![0, 1] S1200x1
  slices_S1200x3_o0_2_S1200x1 : S1200x3.Slices ![0, 2] S1200x1
  broadcasts_S1200x1_S1200x512 : S1200x1.Broadcasts S1200x512
  broadcasts_S1x512_S1200x512 : S1x512.Broadcasts S1200x512
  slices_S1200x2048_o0_0_S1200x512 : S1200x2048.Slices ![0, 0] S1200x512
  slices_S1200x2048_o0_512_S1200x512 : S1200x2048.Slices ![0, 512] S1200x512
  slices_S1200x2048_o0_1024_S1200x512 : S1200x2048.Slices ![0, 1024] S1200x512
  slices_S1200x2048_o0_1536_S1200x512 : S1200x2048.Slices ![0, 1536] S1200x512
  concatenates_S1200x4_S1200x4_S1200x8_d1 : Shape.Concatenates [S1200x4, S1200x4] S1200x8 1
  iota_S1200x512_d1_w32 : S1200x512.Iotas .tc 32 [1]
  rotates_S1200x512_d1 : S1200x512.Rotates 1 none
  dot_S1200x8_S8x512_S1200x512_1_0_0_1_n_n_wf : DotDims.WF S1200x8 S8x512 S1200x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x512.size a ≤ S30000x512.size a
  hwx0_1 : ∀ i : grid0.Coords, EltTy.bits .f32 = 32 ∨ (Rect.block (s := S30000x512) S1200x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x3.size a ≤ S30000x3.size a
  hwx0_2 : ∀ i : grid0.Coords, EltTy.bits .f32 = 32 ∨ (Rect.block (s := S30000x3) S1200x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1200x2048.size a ≤ S30000x2048.size a
  hwx0_3 : ∀ i : grid0.Coords, EltTy.bits .f32 = 32 ∨ (Rect.block (s := S30000x2048) S1200x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1200x4.size a ≤ S30000x4.size a
  hwx0_4 : ∀ i : grid0.Coords, EltTy.bits .f32 = 32 ∨ (Rect.block (s := S30000x4) S1200x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1200x4.size a ≤ S30000x4.size a
  hwx0_5 : ∀ i : grid0.Coords, EltTy.bits .f32 = 32 ∨ (Rect.block (s := S30000x4) S1200x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S8x512.size a
  hwx0_6 : ∀ i : grid0.Coords, EltTy.bits .f32 = 32 ∨ (Rect.block (s := S8x512) S8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1200x512.size a ≤ S30000x512.size a
  hwx0_7 : ∀ i : grid0.Coords, EltTy.bits .f32 = 32 ∨ (Rect.block (s := S30000x512) S1200x512.size (cc0_transform_7 i) (hinb0_7 i)).WholeWords (EltTy.packing .f32)

variable [Facts₀]

def dot_S1200x8_S8x512_S1200x512_1_0_0_1_n_n : DotDims S1200x8 S8x512 S1200x512 where
  lhsContracting := [1]
  rhsContracting := [0]
  lhsNonContracting := [0]
  rhsNonContracting := [1]
  lhsBatch := []
  rhsBatch := []
  wf := dot_S1200x8_S8x512_S1200x512_1_0_0_1_n_n_wf

abbrev win0_0 : Pipeline.Window sig grid0 :=
  Pipeline.Window.ofSpec (Memref.whole main_v0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1200x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1200x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1200x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1200x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1200x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512 : Shape := ⟨1, ![512]⟩
abbrev S30000x512 : Shape := ⟨2, ![30000, 512]⟩
abbrev S30000 : Shape := ⟨1, ![30000]⟩
abbrev S30000x4x512 : Shape := ⟨3, ![30000, 4, 512]⟩
abbrev S30000x4 : Shape := ⟨2, ![30000, 4]⟩
abbrev S4 : Shape := ⟨1, ![4]⟩
abbrev S1x512 : Shape := ⟨2, ![1, 512]⟩
abbrev S30000x1 : Shape := ⟨2, ![30000, 1]⟩
abbrev S_ : Shape := ⟨0, ![]⟩
abbrev S1x1x512 : Shape := ⟨3, ![1, 1, 512]⟩
abbrev S1x4x1 : Shape := ⟨3, ![1, 4, 1]⟩
abbrev S1x4x512 : Shape := ⟨3, ![1, 4, 512]⟩
abbrev S30000x4x1 : Shape := ⟨3, ![30000, 4, 1]⟩
abbrev S30000x514 : Shape := ⟨2, ![30000, 514]⟩

abbrev nBuf : Space → Nat
  | .hbm => 63
  | .vmem => 0
  | .smem => 0
  | _ => 0

abbrev bufTy : (tb : Table) → Fin (tcTables nBuf tb) → BufTy
  | .hbm, ⟨0, _⟩ => ⟨S512, .f32⟩
  | .hbm, ⟨1, _⟩ => ⟨S30000x512, .f32⟩
  | .hbm, ⟨2, _⟩ => ⟨S30000, .f32⟩
  | .hbm, ⟨3, _⟩ => ⟨S30000, .f32⟩
  | .hbm, ⟨4, _⟩ => ⟨S30000x4x512, .f32⟩
  | .hbm, ⟨5, _⟩ => ⟨S30000x4, .f32⟩
  | .hbm, ⟨6, _⟩ => ⟨S30000x4, .f32⟩
  | .hbm, ⟨7, _⟩ => ⟨S4, .f32⟩
  | .hbm, ⟨8, _⟩ => ⟨S30000, .f32⟩
  | .hbm, ⟨9, _⟩ => ⟨S1x512, .f32⟩
  | .hbm, ⟨10, _⟩ => ⟨S30000x1, .f32⟩
  | .hbm, ⟨11, _⟩ => ⟨S30000x1, .f32⟩
  | .hbm, ⟨12, _⟩ => ⟨S30000x512, .f32⟩
  | .hbm, ⟨13, _⟩ => ⟨S30000x512, .f32⟩
  | .hbm, ⟨14, _⟩ => ⟨S30000x512, .f32⟩
  | .hbm, ⟨15, _⟩ => ⟨S30000x512, .f32⟩
  | .hbm, ⟨16, _⟩ => ⟨S30000x512, .f32⟩
  | .hbm, ⟨17, _⟩ => ⟨S_, .f32⟩
  | .hbm, ⟨18, _⟩ => ⟨S30000x512, .f32⟩
  | .hbm, ⟨19, _⟩ => ⟨S30000x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S1x1x512, .f32⟩
  | .hbm, ⟨29, _⟩ => ⟨S_, .f32⟩
  | .hbm, ⟨30, _⟩ => ⟨S1x1x512, .f32⟩
  | .hbm, ⟨31, _⟩ => ⟨S1x1x512, .f32⟩
  | .hbm, ⟨32, _⟩ => ⟨S1x4x1, .f32⟩
  | .hbm, ⟨33, _⟩ => ⟨S1x4x512, .f32⟩
  | .hbm, ⟨34, _⟩ => ⟨S1x4x512, .f32⟩
  | .hbm, ⟨35, _⟩ => ⟨S1x4x512, .f32⟩
  | .hbm, ⟨36, _⟩ => ⟨S30000x4x1, .f32⟩
  | .hbm, ⟨37, _⟩ => ⟨S30000x4x512, .f32⟩
  | .hbm, ⟨38, _⟩ => ⟨S30000x4x512, .f32⟩
  | .hbm, ⟨39, _⟩ => ⟨S30000x4x512, .f32⟩
  | .hbm, ⟨40, _⟩ => ⟨S30000x4x1, .f32⟩
  | .hbm, ⟨41, _⟩ => ⟨S30000x4x512, .f32⟩
  | .hbm, ⟨42, _⟩ => ⟨S30000x4x512, .f32⟩
  | .hbm, ⟨43, _⟩ => ⟨S30000x4x512, .f32⟩
  | .hbm, ⟨44, _⟩ => ⟨S_, .f32⟩
  | .hbm, ⟨45, _⟩ => ⟨S30000x512, .f32⟩
  | .hbm, ⟨46, _⟩ => ⟨S30000x512, .f32⟩
  | .hbm, ⟨47, _⟩ => ⟨S30000, .f32⟩
  | .hbm, ⟨48, _⟩ => ⟨S30000x1, .f32⟩
  | .hbm, ⟨49, _⟩ => ⟨S_, .i32⟩
  | .hbm, ⟨50, _⟩ => ⟨S_, .f32⟩
  | .hbm, ⟨51, _⟩ => ⟨S30000x514, .f32⟩
  | .hbm, ⟨52, _⟩ => ⟨S30000x512, .f32⟩
  | .hbm, ⟨53, _⟩ => ⟨S30000x512, .f32⟩
  | .hbm, ⟨54, _⟩ => ⟨S30000x512, .f32⟩
  | .hbm, ⟨55, _⟩ => ⟨S30000x512, .f32⟩
  | .hbm, ⟨56, _⟩ => ⟨S30000x512, .f32⟩
  | .hbm, ⟨57, _⟩ => ⟨S_, .f32⟩
  | .hbm, ⟨58, _⟩ => ⟨S30000x512, .f32⟩
  | .hbm, ⟨59, _⟩ => ⟨S30000x512, .f32⟩
  | .hbm, ⟨60, _⟩ => ⟨S30000x512, .f32⟩
  | .hbm, ⟨61, _⟩ => ⟨S30000x512, .f32⟩
  | .hbm, ⟨62, _⟩ => ⟨S30000x512, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call1_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S30000_S30000x1_0 : S30000.BroadcastsInDim S30000x1 (![0] : Fin 1 → Fin S30000x1.rank)
  bcast_S30000x1_S30000x512_0_1 : S30000x1.BroadcastsInDim S30000x512 (![0, 1] : Fin 2 → Fin S30000x512.rank)
  bcast_S1x512_S30000x512_0_1 : S1x512.BroadcastsInDim S30000x512 (![0, 1] : Fin 2 → Fin S30000x512.rank)
  reducesTo_S30000x4x512_S30000x512_d1 : S30000x4x512.ReducesTo [1] S30000x512
  h_S_ : 0 < S_.numel
  bcast_S_S4 : S_.BroadcastsInDim S4 (![] : Fin 0 → Fin S4.rank)
  bcast_S512_S1x1x512_2 : S512.BroadcastsInDim S1x1x512 (![2] : Fin 1 → Fin S1x1x512.rank)
  bcast_S_S1x1x512 : S_.BroadcastsInDim S1x1x512 (![] : Fin 0 → Fin S1x1x512.rank)
  bcast_S4_S1x4x1_1 : S4.BroadcastsInDim S1x4x1 (![1] : Fin 1 → Fin S1x4x1.rank)
  bcast_S1x1x512_S1x4x512_0_1_2 : S1x1x512.BroadcastsInDim S1x4x512 (![0, 1, 2] : Fin 3 → Fin S1x4x512.rank)
  bcast_S1x4x1_S1x4x512_0_1_2 : S1x4x1.BroadcastsInDim S1x4x512 (![0, 1, 2] : Fin 3 → Fin S1x4x512.rank)
  bcast_S30000x4_S30000x4x1_0_1 : S30000x4.BroadcastsInDim S30000x4x1 (![0, 1] : Fin 2 → Fin S30000x4x1.rank)
  bcast_S1x4x512_S30000x4x512_0_1_2 : S1x4x512.BroadcastsInDim S30000x4x512 (![0, 1, 2] : Fin 3 → Fin S30000x4x512.rank)
  bcast_S30000x4x1_S30000x4x512_0_1_2 : S30000x4x1.BroadcastsInDim S30000x4x512 (![0, 1, 2] : Fin 3 → Fin S30000x4x512.rank)
  pads_S30000x512_S30000x514_000_110 : S30000x512.Pads (![0, 1] : Fin 2 → Nat) ![0, 1] ![0, 0] S30000x514
  slices_S30000x514_S30000x512_0_0 : S30000x514.Slices ![0, 0] S30000x512
  slices_S30000x514_S30000x512_0_1 : S30000x514.Slices ![0, 1] S30000x512
  slices_S30000x514_S30000x512_0_2 : S30000x514.Slices ![0, 2] S30000x512
  bcast_S_S30000x512 : S_.BroadcastsInDim S30000x512 (![] : Fin 0 → Fin S30000x512.rank)

variable [Facts₀]

class Facts : Prop extends Facts₀ where

variable [Facts]
-- ==== Proof.BitsEntry.lean ====
/-
  The kernel program up to its one region, and what a run of the region says about the argument arrays.

  The program is three straight stretches of host lines followed by the region. None of those lines writes an
  argument array (each writes only its own result), so the region finds every argument as the program was started
  with it; the arrays the region's windows are cut from are read off the memory after the three stretches. A
  window's block at a grid point is that array read through the block's rectangle, and an input window's staging
  buffer holds exactly that block whenever the body is called. From a run of the region that leaves every window's
  array at what the write-backs make of it and every other buffer as the region found it, the nine argument arrays
  end unchanged: three of them are arrays of input windows (never written back), six are touched by no window.
-/
import proofs.«152955_j85779086835979_2_alg».proof.Proof.Gen.Kernel.Launch
import proofs.«152955_j85779086835979_2_alg».proof.Proof.Gen.Kernel.Skeleton
import proofs.«152955_j85779086835979_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the starting memory after the three stretches of host lines. -/
abbrev V (c : Dev nD) (b : Ref sig .tc) : Buf (Elt F) ((c : Thread nD τ).loc b) :=
  StableHlo.after (List.flatten [hostOps0, hostOps0_1, hostOps0_2]) (fun b => m (c, b)) b

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its three stretches of host lines and then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 8: the region finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of its array at every grid point, whether or not
    the block was fetched at that point: where it was not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block of its array at every grid point, whether or not
    the block was fetched at that point: where it was not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block of its array at every grid point, whether or not
    the block was fetched at that point: where it was not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block of its array at every grid point, whether or not
    the block was fetched at that point: where it was not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block of its array at every grid point, whether or not
    the block was fetched at that point: where it was not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block of its array at every grid point, whether or not
    the block was fetched at that point: where it was not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block of its array at every grid point, whether or not
    the block was fetched at that point: where it was not, the block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- From a run that leaves each window's array at what the write-backs make of it and every other buffer as the
    region found it, the nine argument arrays end as the program was started with them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.Kernel.Frame

end
-- ==== Proof.BitsBody.lean ====
/-
  One call of the kernel body, on any whole staging buffers.

  The body reads its seven input buffers whole, computes, reads its output buffer once (the value is not used) and
  then stores one value over the whole output buffer. So from the inputs holding blocks `x0 … x6` and the output
  holding anything, the call ends with the inputs as they were and the output buffer overwritten by a list of
  stored pieces. The list is not written down here: it is whatever the run of the body's memory operations leaves,
  and it is a function of the input blocks alone.
-/
import proofs.«152955_j85779086835979_2_alg».proof.Proof.BitsEntry

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (last first), together with the fact that the body,
    called on whole buffers with the inputs at `x0 … x6`, runs to any continuation that accepts the inputs unchanged
    and the output buffer overwritten by those pieces. -/
noncomputable def bodyRun (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) :
    { L7 : List (View.Piece (Elt F) S1200x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.Kernel.Frame

end
-- ==== Proof.BitsFrame.lean ====
/-
  The run of the whole kernel program, and its frame.

  At every grid point the pipeline calls the body with each window's current staging buffer. Each input buffer holds
  its window's block of the array the region found; the output buffer holds anything. The body leaves the inputs
  alone and overwrites the output buffer by pieces that tile it, so what the buffer reads afterwards does not
  depend on what it held before. That gives the pipeline's proof data: after point `t` an input buffer holds its
  block and the output buffer holds the pieces read back. With it the library's launch theorem runs the program to
  the end: every execution terminates, nothing faults, each window's array ends at what the write-backs make of it
  and every other buffer as the region found it. The argument arrays are therefore unchanged.
-/
import proofs.«152955_j85779086835979_2_alg».proof.Proof.BitsBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- One staging buffer of the output window, through which the buffer's contents after the body are stated; the
    pieces cover the block, so the choice of buffer does not matter. -/
abbrev VO0_7 : View sig .tc .vmem S1200x512 .f32 := (Memref.whole cc0_stg7_0 : Memref sig .tc .vmem S1200x512 .f32).view

/-- Each window's current staging buffer at point `t`, as the pipeline passes it to the body, and that it is whole. -/
abbrev ms0_0 (t : Fin cfg0.N) : Memref sig .tc .vmem S1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1200x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1200x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1200x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1200x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1200x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1200x512 .f32 := win0_7.stage (cfg0.slots t 7)
abbrev hs0_7 (t : Fin cfg0.N) : (ms0_7 t).IsWhole := hstage0_7 ((cfg0.slots t 7).cast nbuf0_7)

/-- The pieces the body stores tile the output block, so every index of the block lies in one of them. -/
theorem cover0_7 (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) (y : S1200x512.Idx) :
    ∃ pc ∈ (bodyRun c i arg1 harg1 arg2 harg2 arg3 harg3 arg4 harg4 arg5 harg5 arg6 harg6 arg7 harg7 arg8 harg8 x0 x1 x2 x3 x4 x5 x6).1, y ∈ pc.1.set :=
  View.cover_of_tiledL (bodyRun c i arg1 harg1 arg2 harg2 arg3 harg3 arg4 harg4 arg5 harg5 arg6 harg6 arg7 harg7 arg8 harg8 x0 x1 x2 x3 x4 x5 x6).1 S1200x512.size (by sl_kernel_rfl) y

/-- What the body leaves in the output buffer: its pieces read back. -/
def out0_7 (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) : Vec F S1200x512 .f32 :=
  VO0_7.read (Elt F) (VO0_7.writes (Elt F) VO0_7.junk (bodyRun c i arg1 harg1 arg2 harg2 arg3 harg3 arg4 harg4 arg5 harg5 arg6 harg6 arg7 harg7 arg8 harg8 x0 x1 x2 x3 x4 x5 x6).1)

/-- What the output buffer holds after the body at point `t`: the body's result on that point's input blocks. -/
def outAt0 (c : Dev nD) (t : Fin cfg0.N) : Vec F S1200x512 .f32 :=
  out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)

/-! ## The pipeline's proof data -/

/-- On core `c`: the arrays as the region finds them; after the body at point `t` each input buffer at its block
    and the output buffer at `outAt0`; the invariant is the untouched rest (no scratch; the generator register);
    nothing is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt0 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt0 m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: the input buffers hold their blocks, so the body's run applies; the invariant and what
    the core owes pass through unread; the output buffer ends at the pieces read back, whatever it held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outAt0
  unfold out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_7 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero, every weakly fair execution of the program terminates without a
    fault, and in every final state each window's array holds what the write-backs make of it and every other
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.IdealEntry.lean ====
/-
  The kernel program up to its one region, and what a run of the region says about the argument arrays.

  The program is three straight stretches of host lines followed by the region. None of those lines writes an
  argument array (each writes only its own result), so the region finds every argument as the program was started
  with it; the arrays the region's windows are cut from are read off the memory after the three stretches. A
  window's block at a grid point is that array read through the block's rectangle, and an input window's staging
  buffer holds exactly that block whenever the body is called. From a run of the region that leaves every window's
  array at what the write-backs make of it and every other buffer as the region found it, the nine argument arrays
  end unchanged: three of them are arrays of input windows (never written back), six are touched by no window.
-/
import proofs.«152955_j85779086835979_2_alg».proof.Proof.Gen.KernelIdeal.Launch
import proofs.«152955_j85779086835979_2_alg».proof.Proof.Gen.KernelIdeal.Skeleton
import proofs.«152955_j85779086835979_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the starting memory after the three stretches of host lines. -/
abbrev V (c : Dev nD) (b : Ref sig .tc) : Buf (Elt F) ((c : Thread nD τ).loc b) :=
  StableHlo.after (List.flatten [hostOps0, hostOps0_1, hostOps0_2]) (fun b => m (c, b)) b

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its three stretches of host lines and then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 8: the region finds it as the program was started with it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of its array at every grid point, whether or not
    the block was fetched at that point: where it was not, the block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds the window's block of its array at every grid point, whether or not
    the block was fetched at that point: where it was not, the block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds the window's block of its array at every grid point, whether or not
    the block was fetched at that point: where it was not, the block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds the window's block of its array at every grid point, whether or not
    the block was fetched at that point: where it was not, the block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds the window's block of its array at every grid point, whether or not
    the block was fetched at that point: where it was not, the block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds the window's block of its array at every grid point, whether or not
    the block was fetched at that point: where it was not, the block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds the window's block of its array at every grid point, whether or not
    the block was fetched at that point: where it was not, the block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run of the region -/

/-- From a run that leaves each window's array at what the write-backs make of it and every other buffer as the
    region found it, the nine argument arrays end as the program was started with them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

end Cert.KernelIdeal.Frame

end
-- ==== Proof.IdealBody.lean ====
/-
  One call of the kernel body, on any whole staging buffers.

  The body reads its seven input buffers whole, computes, reads its output buffer once (the value is not used) and
  then stores one value over the whole output buffer. So from the inputs holding blocks `x0 … x6` and the output
  holding anything, the call ends with the inputs as they were and the output buffer overwritten by a list of
  stored pieces. The list is not written down here: it is whatever the run of the body's memory operations leaves,
  and it is a function of the input blocks alone.
-/
import proofs.«152955_j85779086835979_2_alg».proof.Proof.IdealEntry

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer (last first), together with the fact that the body,
    called on whole buffers with the inputs at `x0 … x6`, runs to any continuation that accepts the inputs unchanged
    and the output buffer overwritten by those pieces. -/
noncomputable def bodyRun (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) :
    { L7 : List (View.Piece (Elt F) S1200x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

end Cert.KernelIdeal.Frame

end
-- ==== Proof.IdealFrame.lean ====
/-
  The run of the whole kernel program, and its frame.

  At every grid point the pipeline calls the body with each window's current staging buffer. Each input buffer holds
  its window's block of the array the region found; the output buffer holds anything. The body leaves the inputs
  alone and overwrites the output buffer by pieces that tile it, so what the buffer reads afterwards does not
  depend on what it held before. That gives the pipeline's proof data: after point `t` an input buffer holds its
  block and the output buffer holds the pieces read back. With it the library's launch theorem runs the program to
  the end: every execution terminates, nothing faults, each window's array ends at what the write-backs make of it
  and every other buffer as the region found it. The argument arrays are therefore unchanged.
-/
import proofs.«152955_j85779086835979_2_alg».proof.Proof.IdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- One staging buffer of the output window, through which the buffer's contents after the body are stated; the
    pieces cover the block, so the choice of buffer does not matter. -/
abbrev VO0_7 : View sig .tc .vmem S1200x512 .f32 := (Memref.whole cc0_stg7_0 : Memref sig .tc .vmem S1200x512 .f32).view

/-- Each window's current staging buffer at point `t`, as the pipeline passes it to the body, and that it is whole. -/
abbrev ms0_0 (t : Fin cfg0.N) : Memref sig .tc .vmem S1x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1200x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1200x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1200x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1200x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1200x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1200x512 .f32 := win0_7.stage (cfg0.slots t 7)
abbrev hs0_7 (t : Fin cfg0.N) : (ms0_7 t).IsWhole := hstage0_7 ((cfg0.slots t 7).cast nbuf0_7)

/-- The pieces the body stores tile the output block, so every index of the block lies in one of them. -/
theorem cover0_7 (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) (y : S1200x512.Idx) :
    ∃ pc ∈ (bodyRun c i arg1 harg1 arg2 harg2 arg3 harg3 arg4 harg4 arg5 harg5 arg6 harg6 arg7 harg7 arg8 harg8 x0 x1 x2 x3 x4 x5 x6).1, y ∈ pc.1.set :=
  View.cover_of_tiledL (bodyRun c i arg1 harg1 arg2 harg2 arg3 harg3 arg4 harg4 arg5 harg5 arg6 harg6 arg7 harg7 arg8 harg8 x0 x1 x2 x3 x4 x5 x6).1 S1200x512.size (by sl_kernel_rfl) y

/-- What the body leaves in the output buffer: its pieces read back. -/
def out0_7 (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) : Vec F S1200x512 .f32 :=
  VO0_7.read (Elt F) (VO0_7.writes (Elt F) VO0_7.junk (bodyRun c i arg1 harg1 arg2 harg2 arg3 harg3 arg4 harg4 arg5 harg5 arg6 harg6 arg7 harg7 arg8 harg8 x0 x1 x2 x3 x4 x5 x6).1)

/-- What the output buffer holds after the body at point `t`: the body's result on that point's input blocks. -/
def outAt0 (c : Dev nD) (t : Fin cfg0.N) : Vec F S1200x512 .f32 :=
  out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)

/-! ## The pipeline's proof data -/

/-- On core `c`: the arrays as the region finds them; after the body at point `t` each input buffer at its block
    and the output buffer at `outAt0`; the invariant is the untouched rest (no scratch; the generator register);
    nothing is owed and every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt0 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt0 m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point: the input buffers hold their blocks, so the body's run applies; the invariant and what
    the core owes pass through unread; the output buffer ends at the pieces read back, whatever it held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outAt0
  unfold out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bodyRun c (grid0.coords t) _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_7 c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with all counters at zero, every weakly fair execution of the program terminates without a
    fault, and in every final state each window's array holds what the write-backs make of it and every other
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.Spec.lean ====
/-
  The result both programs compute, entry by entry, over the extended reals.

  For station `n` and time step `q`:
    offset(n) + trend(n) · time(q)
    + the sum over the four bands of seasonal(n, h, q)
    + the sum over the four harmonics of amplitude(n, h) · sin(angle(h, q) + phase(n, h)),
        angle(h, q) = (2π · time(q)) / clip(period(h)) with the period clipped to [20, 300],
    + |noise amplitude(n)| · ((noise(n, q−1) + noise(n, q)) + noise(n, q+1)) / 3,
        the neighbours outside the row taken as zero.
  The sums over bands and harmonics start from zero, as a reduction does. The literals are kept as the bit
  patterns both programs print; none of them is evaluated here.
-/
import Idealize.ShloMosaic.PureOps.Ideal
import Idealize.ShloMosaic.Lib.ValueIdx

noncomputable section

namespace Cert.Harmonic

open Idealize.ShloMosaic Idealize.ShloMosaic.ValueIdx

/-- 2π, 3, and the two clip bounds 20 and 300, as single-precision patterns read over the extended reals. -/
def twoPi : EReal := Ideal.ofBits .f32 0x40C90FDB#32
def three : EReal := Ideal.ofBits .f32 0x40400000#32
def lowBound : EReal := Ideal.ofBits .f32 0x41A00000#32
def highBound : EReal := Ideal.ofBits .f32 0x43960000#32

/-- A period clipped to the interval between the two bounds. -/
def clipped (per : (⟨1, ![4]⟩ : Shape).Idx → EReal) (h : Fin 4) : EReal :=
  min highBound (max lowBound (per (ix1 h)))

/-- The angle of harmonic `h` at time step `q`. -/
def angle (tv : (⟨1, ![512]⟩ : Shape).Idx → EReal) (per : (⟨1, ![4]⟩ : Shape).Idx → EReal) (h : Fin 4) (q : Fin 512) : EReal :=
  Ideal.div (twoPi * tv (ix1 q)) (clipped per h)

/-- The noise one step earlier in the row, zero before the row's start. -/
def before (x : (⟨2, ![30000, 512]⟩ : Shape).Idx → EReal) (n : Fin 30000) (q : Fin 512) : EReal :=
  if h : q.val = 0 then 0 else x (ix2 n ⟨q.val - 1, by have := q.isLt; omega⟩)

/-- The noise one step later in the row, zero after the row's end. -/
def after (x : (⟨2, ![30000, 512]⟩ : Shape).Idx → EReal) (n : Fin 30000) (q : Fin 512) : EReal :=
  if h : q.val = 511 then 0 else x (ix2 n ⟨q.val + 1, by have := q.isLt; omega⟩)

/-- The three-tap average of the noise row around `q`. -/
def smoothed (x : (⟨2, ![30000, 512]⟩ : Shape).Idx → EReal) (n : Fin 30000) (q : Fin 512) : EReal :=
  Ideal.div ((before x n q + x (ix2 n q)) + after x n q) three

/-- The sum of the four sinusoids of station `n` at time step `q`. -/
def harmonics (tv : (⟨1, ![512]⟩ : Shape).Idx → EReal) (amp ph : (⟨2, ![30000, 4]⟩ : Shape).Idx → EReal)
    (per : (⟨1, ![4]⟩ : Shape).Idx → EReal) (n : Fin 30000) (q : Fin 512) : EReal :=
  0 + ∑ h : Fin 4, amp (ix2 n h) * Ideal.sin (angle tv per h q + ph (ix2 n h))

/-- The result at station `n`, time step `q`. -/
def resultAt (tv : (⟨1, ![512]⟩ : Shape).Idx → EReal) (noise : (⟨2, ![30000, 512]⟩ : Shape).Idx → EReal)
    (c0 tr : (⟨1, ![30000]⟩ : Shape).Idx → EReal) (emd : (⟨3, ![30000, 4, 512]⟩ : Shape).Idx → EReal)
    (amp ph : (⟨2, ![30000, 4]⟩ : Shape).Idx → EReal) (per : (⟨1, ![4]⟩ : Shape).Idx → EReal)
    (na : (⟨1, ![30000]⟩ : Shape).Idx → EReal) (n : Fin 30000) (q : Fin 512) : EReal :=
  (((c0 (ix1 n) + tr (ix1 n) * tv (ix1 q)) + (0 + ∑ h : Fin 4, emd (ix3 n h q)))
      + harmonics tv amp ph per n q)
    + FloatOps.absf (F := Ideal) (φ := .f32) (na (ix1 n)) * smoothed noise n q

/-- The whole result array. -/
def result (tv : (⟨1, ![512]⟩ : Shape).Idx → EReal) (noise : (⟨2, ![30000, 512]⟩ : Shape).Idx → EReal)
    (c0 tr : (⟨1, ![30000]⟩ : Shape).Idx → EReal) (emd : (⟨3, ![30000, 4, 512]⟩ : Shape).Idx → EReal)
    (amp ph : (⟨2, ![30000, 4]⟩ : Shape).Idx → EReal) (per : (⟨1, ![4]⟩ : Shape).Idx → EReal)
    (na : (⟨1, ![30000]⟩ : Shape).Idx → EReal) : (⟨2, ![30000, 512]⟩ : Shape).Idx → EReal :=
  fun i => resultAt tv noise c0 tr emd amp ph per na (i 0) (i 1)

end Cert.Harmonic

end
-- ==== Proof.RefValue.lean ====
/-
  The reference's result is the specified array.

  The reference is a straight line of host operations. Read one operation at a time at station `n`, time step `q`
  (and harmonic or band `h`), every layout operation only moves a coordinate, so each stage is the stage before it
  at the evident index: the offset and trend columns at `n`, the time row at `q`, the bands and the harmonics at
  `(n, h, q)`. The two reductions are a start value plus the sum over the four entries. The zero-padded row is the
  noise row shifted by one with a zero column at each end; its three slices at column offsets 0, 1, 2 are the
  neighbour before, the entry itself and the neighbour after.
-/
import proofs.«152955_j85779086835979_2_alg».proof.Proof.Gen.ReferenceIdeal.Read
import proofs.«152955_j85779086835979_2_alg».proof.Proof.Spec
import Idealize.ShloMosaic.Lib.KernelVsHost
import Idealize.ShloMosaic.PureOps.Ideal.Laws

set_option maxRecDepth 16384

noncomputable section

namespace Cert.ReferenceIdeal.RefValue

open Cert.ReferenceIdeal Cert.ReferenceIdeal.Gen Cert.ReferenceIdeal.Read Cert.Harmonic
open Idealize.ShloMosaic Idealize.ShloMosaic.TcCoe Idealize.ShloMosaic.ValueIdx

variable (x0 : (⟨S512, .f32⟩ : BufTy).Contents (Elt Ideal)) (x1 : (⟨S30000x512, .f32⟩ : BufTy).Contents (Elt Ideal))
  (x2 x3 : (⟨S30000, .f32⟩ : BufTy).Contents (Elt Ideal)) (x4 : (⟨S30000x4x512, .f32⟩ : BufTy).Contents (Elt Ideal))
  (x5 x6 : (⟨S30000x4, .f32⟩ : BufTy).Contents (Elt Ideal)) (x7 : (⟨S4, .f32⟩ : BufTy).Contents (Elt Ideal))
  (x8 : (⟨S30000, .f32⟩ : BufTy).Contents (Elt Ideal))
  (n : Fin 30000) (q : Fin 512) (h : Fin 4)

/-! ## Where each stage reads its operand -/

theorem at_offset : idx_main_v1 (idx_main_v6 (ix2 n q)) = ix1 n := funext fun a => Fin.ext (by match a with | ⟨0, _⟩ => rfl)
theorem at_trend : idx_main_v2 (idx_main_v3 (ix2 n q)) = ix1 n := funext fun a => Fin.ext (by match a with | ⟨0, _⟩ => rfl)
theorem at_time : idx_main_v0 (idx_main_v4 (ix2 n q)) = ix1 q := funext fun a => Fin.ext (by match a with | ⟨0, _⟩ => rfl)
theorem at_band : idx_main_v8 (ix2 n q) h = ix3 n h q :=
  funext fun a => Fin.ext (by match a with | ⟨0, _⟩ => rfl | ⟨1, _⟩ => rfl | ⟨2, _⟩ => rfl)
theorem at_term : idx_main_v26 (ix2 n q) h = ix3 n h q :=
  funext fun a => Fin.ext (by match a with | ⟨0, _⟩ => rfl | ⟨1, _⟩ => rfl | ⟨2, _⟩ => rfl)
theorem at_angle_time : idx_main_v11 (idx_main_v15 (idx_main_v19 (ix3 n h q))) = ix1 q :=
  funext fun a => Fin.ext (by match a with | ⟨0, _⟩ => rfl)
theorem at_angle_period : idx_main_v14 (idx_main_v16 (idx_main_v19 (ix3 n h q))) = ix1 h :=
  funext fun a => Fin.ext (by match a with | ⟨0, _⟩ => rfl)
theorem at_phase : idx_main_v18 (idx_main_v20 (ix3 n h q)) = ix2 n h :=
  funext fun a => Fin.ext (by match a with | ⟨0, _⟩ => rfl | ⟨1, _⟩ => rfl)
theorem at_amplitude : idx_main_v22 (idx_main_v24 (ix3 n h q)) = ix2 n h :=
  funext fun a => Fin.ext (by match a with | ⟨0, _⟩ => rfl | ⟨1, _⟩ => rfl)
theorem at_scale : idx_main_v29 (idx_main_v38 (ix2 n q)) = ix1 n := funext fun a => Fin.ext (by match a with | ⟨0, _⟩ => rfl)

/-! ## The terms of the result, one at a time -/

/-- Offset plus trend times time. -/
theorem linear_at : val_main_v7 (F := Ideal) x0 x2 x3 (ix2 n q) = x2 (ix1 n) + x3 (ix1 n) * x0 (ix1 q) := by
  rw [val_main_v7_apply, val_main_v6_apply, val_main_v1_apply, val_main_v5_apply, val_main_v3_apply, val_main_v2_apply,
    val_main_v4_apply, val_main_v0_apply, at_offset, at_trend, at_time]
  rfl

/-- The sum of the four seasonal bands, from the reduction's start value. -/
theorem bands_at : val_main_v8 (F := Ideal) x4 (ix2 n q) = Ideal.ofBits .f32 0x00000000#32 + ∑ k : Fin 4, x4 (ix3 n k q) := by
  rw [val_main_v8_apply, val_main_cst_apply]
  refine congrArg (_ + ·) (Finset.sum_congr rfl fun k _ => ?_)
  rw [at_band]

/-- The angle of harmonic `h` at time step `q`, as the reference spells it. -/
theorem angle_at : val_main_v19 (F := Ideal) x0 x7 (ix3 n h q) = angle x0 x7 h q := by
  rw [val_main_v19_apply, val_main_v17_apply, val_main_v15_apply, val_main_v13_apply, val_main_v12_apply,
    val_main_cst_2_apply, val_main_v11_apply, val_main_v16_apply, val_main_v14_apply, val_main_v10_apply,
    val_main_call0_v4_apply, val_main_call0_v3_apply, val_main_cst_1_apply, val_main_call0_v2_apply,
    val_main_call0_v1_apply, val_main_call0_v0_apply, val_main_cst_0_apply, at_angle_time, at_angle_period]
  rfl

/-- One sinusoid: amplitude times the sine of angle plus phase. -/
theorem term_at : val_main_v25 (F := Ideal) x0 x5 x6 x7 (ix3 n h q)
    = x5 (ix2 n h) * Ideal.sin (angle x0 x7 h q + x6 (ix2 n h)) := by
  rw [val_main_v25_apply, val_main_v24_apply, val_main_v22_apply, val_main_v23_apply, val_main_v21_apply, angle_at,
    val_main_v20_apply, val_main_v18_apply, at_phase, at_amplitude]
  rfl

/-- The sum of the four sinusoids, from the reduction's start value. -/
theorem terms_at : val_main_v26 (F := Ideal) x0 x5 x6 x7 (ix2 n q)
    = Ideal.ofBits .f32 0x00000000#32 + ∑ k : Fin 4, x5 (ix2 n k) * Ideal.sin (angle x0 x7 k q + x6 (ix2 n k)) := by
  rw [val_main_v26_apply, val_main_cst_3_apply]
  refine congrArg (_ + ·) (Finset.sum_congr rfl fun k _ => ?_)
  rw [at_term, term_at]

/-- The absolute noise amplitude of station `n`. -/
theorem scale_at : val_main_v38 (F := Ideal) x8 (ix2 n q) = FloatOps.absf (F := Ideal) (φ := .f32) (x8 (ix1 n)) := by
  rw [val_main_v38_apply, val_main_v29_apply, val_main_v28_apply, at_scale]
  rfl

/-! ## The zero-padded row and its three slices -/

/-- The padding value: the integer zero converted. -/
theorem pad_value : val_main_call1_v0 (F := Ideal) (Shape.Idx.first h_S_) = 0 := by
  rw [val_main_call1_v0_apply, val_main_c_apply]
  exact sitofp_zero (φ := .f32)

/-- The slice at column offset 0 of the padded row: the neighbour before, zero at the row's start. -/
theorem before_at : val_main_v31 (F := Ideal) x1 (ix2 n q) = before x1 n q := by
  rw [val_main_v31_apply]
  unfold val_main_v30 before
  by_cases hq : q.val = 0
  · rw [dif_pos hq]
    refine (pad_apply_of_not_inside ![0, 1] ![0, 1] ![0, 0] x1 _ pads_S30000x512_S30000x514_000_110 h_S_ _ (1 : Fin 2) ?_).trans (pad_value)
    rintro ⟨h1, -, -⟩
    have : (1 : ℕ) ≤ q.val := h1
    omega
  · rw [dif_neg hq]
    refine pad_apply_of_inside ![0, 1] ![0, 1] ![0, 0] x1 _ pads_S30000x512_S30000x514_000_110 h_S_ _ _ fun a => ?_
    match a with
    | ⟨0, _⟩ => show n.val = 0 + n.val * (0 + 1); omega
    | ⟨1, _⟩ => show q.val = 1 + (q.val - 1) * (0 + 1); omega

/-- The slice at column offset 1: the entry itself. -/
theorem self_at : val_main_v32 (F := Ideal) x1 (ix2 n q) = x1 (ix2 n q) := by
  rw [val_main_v32_apply]
  unfold val_main_v30
  refine pad_apply_of_inside ![0, 1] ![0, 1] ![0, 0] x1 _ pads_S30000x512_S30000x514_000_110 h_S_ _ _ fun a => ?_
  match a with
  | ⟨0, _⟩ => show n.val = 0 + n.val * (0 + 1); omega
  | ⟨1, _⟩ => show 1 + q.val = 1 + q.val * (0 + 1); omega

/-- The slice at column offset 2: the neighbour after, zero at the row's end. -/
theorem after_at : val_main_v34 (F := Ideal) x1 (ix2 n q) = after x1 n q := by
  rw [val_main_v34_apply]
  unfold val_main_v30 after
  have hlt : q.val < 512 := q.isLt
  by_cases hq : q.val = 511
  · rw [dif_pos hq]
    refine (pad_apply_of_not_inside ![0, 1] ![0, 1] ![0, 0] x1 _ pads_S30000x512_S30000x514_000_110 h_S_ _ (1 : Fin 2) ?_).trans (pad_value)
    rintro ⟨-, -, h3⟩
    have : (2 + q.val - 1) / (0 + 1) < 512 := h3
    rw [Nat.div_one] at this
    omega
  · rw [dif_neg hq]
    refine pad_apply_of_inside ![0, 1] ![0, 1] ![0, 0] x1 _ pads_S30000x512_S30000x514_000_110 h_S_ _ _ fun a => ?_
    match a with
    | ⟨0, _⟩ => show n.val = 0 + n.val * (0 + 1); omega
    | ⟨1, _⟩ => show 2 + q.val = 1 + (q.val + 1) * (0 + 1); omega

/-- The three-tap average. -/
theorem smoothed_at : val_main_v37 (F := Ideal) x1 (ix2 n q) = smoothed x1 n q := by
  rw [val_main_v37_apply, val_main_v35_apply, val_main_v33_apply, before_at, self_at, after_at, val_main_v36_apply,
    val_main_cst_4_apply]
  rfl

/-! ## The whole result -/

/-- The reference's result at station `n`, time step `q`. -/
theorem result_at : val_main_v40 (F := Ideal) x0 x1 x2 x3 x4 x5 x6 x7 x8 (ix2 n q)
    = resultAt x0 x1 x2 x3 x4 x5 x6 x7 x8 n q := by
  rw [val_main_v40_apply, val_main_v27_apply, val_main_v9_apply, linear_at, bands_at, terms_at, val_main_v39_apply,
    scale_at, smoothed_at, Ideal.ofBits_zero_f32]
  rfl

/-- The reference's result array is the specified one. -/
theorem ref_is_result : val_main_v40 (F := Ideal) x0 x1 x2 x3 x4 x5 x6 x7 x8 = result x0 x1 x2 x3 x4 x5 x6 x7 x8 := by
  funext i
  obtain ⟨n, q, rfl⟩ : ∃ (n : Fin 30000) (q : Fin 512), i = ix2 n q := ⟨i 0, i 1, eq_ix2 i⟩
  exact result_at x0 x1 x2 x3 x4 x5 x6 x7 x8 n q

end Cert.ReferenceIdeal.RefValue

end
-- ==== Proof.IdealBlock.lean ====
/-
  What one call of the body leaves in the output buffer, as a function of the input blocks.

  The body's only store covers the whole output block, so the buffer reads back as that store's value: the body's
  arithmetic applied to the seven input blocks, each read whole.
-/
import proofs.«152955_j85779086835979_2_alg».proof.Proof.IdealFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.Sem

variable {F : FTy → Type} [FloatOps F]

/-- The body's result on input blocks `x0 … x6` (time row, noise, packed offset/trend/noise-amplitude columns,
    seasonal bands side by side, amplitudes, phases, the sine/cosine table): the value of its one store. -/
def bodyValue (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) : Vec F S1200x512 .f32 :=
  k0_pay1 x1 (k0_pay3 x2) (k0_pay4 x0 x2 x3 x4 x5 x6) (iota .tc S1200x512 32 [1] iota_S1200x512_d1_w32) (k0_pay5 (F := F)) (k0_pay6 x1) 511#32

/-- The output buffer after the body holds `bodyValue` of the input blocks, on whatever staging buffers. -/
theorem out0_7_eq (c : Dev nD) (i : grid0.Coords) (arg1 : Memref sig .tc .vmem S1x512 .f32) (harg1 : arg1.IsWhole) (arg2 : Memref sig .tc .vmem S1200x512 .f32) (harg2 : arg2.IsWhole) (arg3 : Memref sig .tc .vmem S1200x3 .f32) (harg3 : arg3.IsWhole) (arg4 : Memref sig .tc .vmem S1200x2048 .f32) (harg4 : arg4.IsWhole) (arg5 : Memref sig .tc .vmem S1200x4 .f32) (harg5 : arg5.IsWhole) (arg6 : Memref sig .tc .vmem S1200x4 .f32) (harg6 : arg6.IsWhole) (arg7 : Memref sig .tc .vmem S8x512 .f32) (harg7 : arg7.IsWhole) (arg8 : Memref sig .tc .vmem S1200x512 .f32) (harg8 : arg8.IsWhole)
    (x0 : Vec F S1x512 .f32) (x1 : Vec F S1200x512 .f32) (x2 : Vec F S1200x3 .f32) (x3 : Vec F S1200x2048 .f32) (x4 : Vec F S1200x4 .f32) (x5 : Vec F S1200x4 .f32) (x6 : Vec F S8x512 .f32) :
    out0_7 c i arg1 harg1 arg2 harg2 arg3 harg3 arg4 harg4 arg5 harg5 arg6 harg6 arg7 harg7 arg8 harg8 x0 x1 x2 x3 x4 x5 x6 = bodyValue x0 x1 x2 x3 x4 x5 x6 := by
  unfold out0_7
  rw [View.read_writes_eq_canon _ _ _ (cover0_7 c i arg1 harg1 arg2 harg2 arg3 harg3 arg4 harg4 arg5 harg5 arg6 harg6 arg7 harg7 arg8 harg8 x0 x1 x2 x3 x4 x5 x6)]
  unfold bodyRun
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg7.read_unread, View.ld_unit_zero (S := S1x512) hz, View.ld_unit_zero (S := S1200x512) hz, View.ld_unit_zero (S := S1200x3) hz, View.ld_unit_zero (S := S1200x2048) hz, View.ld_unit_zero (S := S1200x4) hz, View.ld_unit_zero (S := S8x512) hz]
  rfl

end Cert.KernelIdeal.Frame

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.IdealBodyAt.lean ====
/-
  The body's arithmetic read at one entry of the block.

  The body works on a block of 1200 stations by 512 time steps. Its inputs are: the time row [1, 512]; the noise block
  [1200, 512]; the packed columns [1200, 3] (offset, trend, noise amplitude); the four seasonal bands side by side
  [1200, 2048]; amplitudes and phases [1200, 4]; and the table [8, 512] whose first four rows are the sines and last
  four the cosines of the angles. At station row `p` and time step `q` every layout operation only moves a coordinate:
  a column slice of the packed block reads column `j` at row `p`; a band slice reads column `512 h + q`; a column
  broadcast along the time axis reads its row `p`, the time row broadcast down the stations reads its column `q`;
  the lane rotation by one reads the neighbour before (around the end at the first lane) and by 511 the neighbour
  after (around the end at the last lane), and the two wrap-around lanes are then replaced by zero.
-/
import proofs.«152955_j85779086835979_2_alg».proof.Proof.IdealBlock
import proofs.«152955_j85779086835979_2_alg».proof.Proof.LibRows
import proofs.«152955_j85779086835979_2_alg».proof.Proof.LibPlainMatmul
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.BodyAt

open Cert.KernelIdeal Cert.KernelIdeal.Gen Cert.KernelIdeal.Frame
open Idealize.ShloMosaic Idealize.ShloMosaic.TcCoe Idealize.ShloMosaic.ValueIdx

variable (p : Fin 1200) (q : Fin 512)

/-! ## Slices -/

/-- Column `j` of the packed block, as a one-column block, at row `p`. -/
theorem packed_col0 (v : FVec Ideal S1200x3 .f32) (h : S1200x3.Slices ![0, 0] S1200x1) :
    extractStridedSlice S1200x1 ![0, 0] v h (ix2 p (0 : Fin 1)) = v (ix2 p (0 : Fin 3)) :=
  extractStridedSlice_apply ![0, 0] v h (ix2 p (0 : Fin 1)) (ix2 p (0 : Fin 3)) (fun a => match a with
    | ⟨0, _⟩ => by show p.val = 0 + p.val; omega
    | ⟨1, _⟩ => by show (0 : ℕ) = 0 + 0; rfl)
theorem packed_col1 (v : FVec Ideal S1200x3 .f32) (h : S1200x3.Slices ![0, 1] S1200x1) :
    extractStridedSlice S1200x1 ![0, 1] v h (ix2 p (0 : Fin 1)) = v (ix2 p (1 : Fin 3)) :=
  extractStridedSlice_apply ![0, 1] v h (ix2 p (0 : Fin 1)) (ix2 p (1 : Fin 3)) (fun a => match a with
    | ⟨0, _⟩ => by show p.val = 0 + p.val; omega
    | ⟨1, _⟩ => by show (1 : ℕ) = 1 + 0; rfl)
theorem packed_col2 (v : FVec Ideal S1200x3 .f32) (h : S1200x3.Slices ![0, 2] S1200x1) :
    extractStridedSlice S1200x1 ![0, 2] v h (ix2 p (0 : Fin 1)) = v (ix2 p (2 : Fin 3)) :=
  extractStridedSlice_apply ![0, 2] v h (ix2 p (0 : Fin 1)) (ix2 p (2 : Fin 3)) (fun a => match a with
    | ⟨0, _⟩ => by show p.val = 0 + p.val; omega
    | ⟨1, _⟩ => by show (2 : ℕ) = 2 + 0; rfl)

/-- Band `h` of the seasonal block (the columns from `512 h` on) at row `p`, time step `q`. -/
theorem band0 (v : FVec Ideal S1200x2048 .f32) (h : S1200x2048.Slices ![0, 0] S1200x512) :
    extractStridedSlice S1200x512 ![0, 0] v h (ix2 p q) = v (ix2 p (⟨0 + q.val, by have := q.isLt; omega⟩ : Fin 2048)) :=
  extractStridedSlice_apply ![0, 0] v h (ix2 p q) _ (fun a => match a with
    | ⟨0, _⟩ => by show p.val = 0 + p.val; omega
    | ⟨1, _⟩ => by show 0 + q.val = 0 + q.val; rfl)
theorem band1 (v : FVec Ideal S1200x2048 .f32) (h : S1200x2048.Slices ![0, 512] S1200x512) :
    extractStridedSlice S1200x512 ![0, 512] v h (ix2 p q) = v (ix2 p (⟨512 + q.val, by have := q.isLt; omega⟩ : Fin 2048)) :=
  extractStridedSlice_apply ![0, 512] v h (ix2 p q) _ (fun a => match a with
    | ⟨0, _⟩ => by show p.val = 0 + p.val; omega
    | ⟨1, _⟩ => by show 512 + q.val = 512 + q.val; rfl)
theorem band2 (v : FVec Ideal S1200x2048 .f32) (h : S1200x2048.Slices ![0, 1024] S1200x512) :
    extractStridedSlice S1200x512 ![0, 1024] v h (ix2 p q) = v (ix2 p (⟨1024 + q.val, by have := q.isLt; omega⟩ : Fin 2048)) :=
  extractStridedSlice_apply ![0, 1024] v h (ix2 p q) _ (fun a => match a with
    | ⟨0, _⟩ => by show p.val = 0 + p.val; omega
    | ⟨1, _⟩ => by show 1024 + q.val = 1024 + q.val; rfl)
theorem band3 (v : FVec Ideal S1200x2048 .f32) (h : S1200x2048.Slices ![0, 1536] S1200x512) :
    extractStridedSlice S1200x512 ![0, 1536] v h (ix2 p q) = v (ix2 p (⟨1536 + q.val, by have := q.isLt; omega⟩ : Fin 2048)) :=
  extractStridedSlice_apply ![0, 1536] v h (ix2 p q) _ (fun a => match a with
    | ⟨0, _⟩ => by show p.val = 0 + p.val; omega
    | ⟨1, _⟩ => by show 1536 + q.val = 1536 + q.val; rfl)

/-! ## Broadcasts -/

/-- A column broadcast along the time axis reads its row; the time row broadcast down the stations reads its column. -/
theorem along_time (v : FVec Ideal S1200x1 .f32) (h : S1200x1.Broadcasts S1200x512) :
    broadcastTo S1200x512 v h (ix2 p q) = v (ix2 p (0 : Fin 1)) :=
  Cert.Rows.bcast_col (by decide) v h p q
theorem down_stations (v : FVec Ideal S1x512 .f32) (h : S1x512.Broadcasts S1200x512) :
    broadcastTo S1200x512 v h (ix2 p q) = v (ix2 (0 : Fin 1) q) :=
  Cert.Rows.bcast_row (by decide) v h p q

/-! ## The matrix product -/

/-- The product of a [1200, 8] block with the [8, 512] table into a zero block, at `(p, q)`: the sum of the eight
    products along row `p` and column `q`. -/
theorem product_at (l : FVec Ideal S1200x8 .f32) (r : FVec Ideal S8x512 .f32) :
    matmul dot_S1200x8_S8x512_S1200x512_1_0_0_1_n_n none l r (constant (F := Ideal) S1200x512 .f32 0x00000000#32) (ix2 p q)
      = ∑ k : Fin 8, l (ix2 p k) * r (ix2 k q) :=
  Cert.LibPlainMatmul.matmul_zero_apply dot_S1200x8_S8x512_S1200x512_1_0_0_1_n_n rfl rfl rfl rfl rfl rfl none l r p q

/-! ## The lane mask and the two rotations -/

/-- Selecting on an equality test of two words is the choice by whether they are equal. -/
theorem select_on_eq {α : Type} (a b : BitVec 32) (x y : α) :
    Scalar.select (IntOp.cmpi .eq a b) x y = if a = b then x else y := by
  have hc : IntOp.cmpi .eq a b = BitVec.ofBool (a == b) := rfl
  unfold Scalar.select
  rw [hc]
  by_cases h : a = b
  · rw [if_pos h]; subst h
    rw [beq_self_eq_true]; exact if_pos (by decide)
  · rw [if_neg h, beq_eq_false_iff_ne.mpr h]; exact if_neg (by decide)

/-- Lane numbers below 512 are equal as 32-bit words exactly when they are equal. -/
theorem lane_word_inj (a b : ℕ) (ha : a < 512) (hb : b < 512) : BitVec.ofNat 32 a = BitVec.ofNat 32 b ↔ a = b := by
  constructor
  · intro e
    have h := congrArg BitVec.toNat e
    rw [BitVec.toNat_ofNat, BitVec.toNat_ofNat, Nat.mod_eq_of_lt (by omega), Nat.mod_eq_of_lt (by omega)] at h
    exact h
  · rintro rfl; rfl

/-- The lane index of the block at `(p, q)` is `q` as a word. -/
theorem lane_at (h : S1200x512.Iotas .tc 32 [1]) : iota .tc S1200x512 32 [1] h (ix2 p q) = BitVec.ofNat 32 q.val :=
  iota_single_apply .tc S1200x512 32 (1 : Fin 2) h (ix2 p q)

/-- The rotation by one lane reads the neighbour before, around the end at the first lane. -/
theorem rotate_one (x : FVec Ideal S1200x512 .f32) (h : S1200x512.Rotates 1 none) :
    dynamicRotate 1 1#32 none x h (ix2 p q)
      = x (ix2 p (⟨(q.val + 512 - 1 % 512) % 512, Nat.mod_lt _ (by decide)⟩ : Fin 512)) :=
  dynamicRotate_apply (1 : Fin 2) 1#32 x h (ix2 p q)
    (ix2 p (⟨(q.val + 512 - 1 % 512) % 512, Nat.mod_lt _ (by decide)⟩ : Fin 512)) (fun b => match b with
    | ⟨0, _⟩ => rfl
    | ⟨1, _⟩ => by show (q.val + 512 - 1 % 512) % 512 = (q.val + 512 - (1#32 : BitVec 32).toNat % 512) % 512; rfl)

/-- The rotation by 511 lanes reads the neighbour after, around the end at the last lane. -/
theorem rotate_last (x : FVec Ideal S1200x512 .f32) (h : S1200x512.Rotates 1 none) :
    dynamicRotate 1 511#32 none x h (ix2 p q)
      = x (ix2 p (⟨(q.val + 512 - 511 % 512) % 512, Nat.mod_lt _ (by decide)⟩ : Fin 512)) :=
  dynamicRotate_apply (1 : Fin 2) 511#32 x h (ix2 p q)
    (ix2 p (⟨(q.val + 512 - 511 % 512) % 512, Nat.mod_lt _ (by decide)⟩ : Fin 512)) (fun b => match b with
    | ⟨0, _⟩ => rfl
    | ⟨1, _⟩ => by show (q.val + 512 - 511 % 512) % 512 = (q.val + 512 - (511#32 : BitVec 32).toNat % 512) % 512; rfl)

/-- The neighbour before in the noise block, the fill value `z` at the first lane: the rotation by one with the
    wrap-around lane replaced. -/
def blockBefore (z : EReal) (x : FVec Ideal S1200x512 .f32) (p : Fin 1200) (q : Fin 512) : EReal :=
  if h : q.val = 0 then z else x (ix2 p ⟨q.val - 1, by have := q.isLt; omega⟩)

/-- The neighbour after, the fill value `z` at the last lane. -/
def blockAfter (z : EReal) (x : FVec Ideal S1200x512 .f32) (p : Fin 1200) (q : Fin 512) : EReal :=
  if h : q.val = 511 then z else x (ix2 p ⟨q.val + 1, by have := q.isLt; omega⟩)

theorem masked_before (z : EReal) (x : FVec Ideal S1200x512 .f32) (hi : S1200x512.Iotas .tc 32 [1]) (hr : S1200x512.Rotates 1 none) :
    Scalar.select (IntOp.cmpi .eq (iota .tc S1200x512 32 [1] hi (ix2 p q)) 0#32) z
        (dynamicRotate 1 1#32 none x hr (ix2 p q))
      = blockBefore z x p q := by
  have hq := q.isLt
  rw [lane_at, select_on_eq, rotate_one]
  unfold blockBefore
  by_cases h0 : q.val = 0
  · rw [dif_pos h0, if_pos ((lane_word_inj q.val 0 hq (by decide)).2 h0)]
  · rw [dif_neg h0, if_neg (fun e => h0 ((lane_word_inj q.val 0 hq (by decide)).1 e))]
    exact congrArg x (congrArg (ix2 p) (Fin.ext (by show (q.val + 512 - 1 % 512) % 512 = q.val - 1; omega)))

theorem masked_after (z : EReal) (x : FVec Ideal S1200x512 .f32) (hi : S1200x512.Iotas .tc 32 [1]) (hr : S1200x512.Rotates 1 none) :
    Scalar.select (IntOp.cmpi .eq (iota .tc S1200x512 32 [1] hi (ix2 p q)) 511#32) z
        (dynamicRotate 1 511#32 none x hr (ix2 p q))
      = blockAfter z x p q := by
  have hq := q.isLt
  rw [lane_at, select_on_eq, rotate_last]
  unfold blockAfter
  by_cases h0 : q.val = 511
  · rw [dif_pos h0, if_pos ((lane_word_inj q.val 511 hq (by decide)).2 h0)]
  · rw [dif_neg h0, if_neg (fun e => h0 ((lane_word_inj q.val 511 hq (by decide)).1 e))]
    exact congrArg x (congrArg (ix2 p) (Fin.ext (by show (q.val + 512 - 511 % 512) % 512 = q.val + 1; omega)))

/-! ## The body's value at `(p, q)` -/

/-- The eight coefficients of each station row: amplitude times the cosine of the phase for the four harmonics, then
    amplitude times the sine of the phase. -/
def coeffs (x4 x5 : FVec Ideal S1200x4 .f32) : FVec Ideal S1200x8 .f32 :=
  concatenate S1200x8 1 [⟨S1200x4, mulf x4 (cos x5)⟩, ⟨S1200x4, mulf x4 (sin x5)⟩] concatenates_S1200x4_S1200x4_S1200x8_d1

/-- The zero and the three the body splats, as it spells them. -/
def zeroWord : EReal := FloatOps.ofBits (F := Ideal) .f32 0x00000000#32
def threeWord : EReal := FloatOps.ofBits (F := Ideal) .f32 0x40400000#32

/-- The body's result at station row `p`, time step `q`, from the seven input blocks: offset plus trend times time,
    plus the four bands added left to right, plus the eight coefficient-times-table products, plus the absolute noise
    amplitude times the three-tap average of the noise row with the two outer neighbours filled in at the ends. -/
theorem bodyValue_at (x0 : Vec Ideal S1x512 .f32) (x1 : Vec Ideal S1200x512 .f32) (x2 : Vec Ideal S1200x3 .f32)
    (x3 : Vec Ideal S1200x2048 .f32) (x4 x5 : Vec Ideal S1200x4 .f32) (x6 : Vec Ideal S8x512 .f32) :
    bodyValue x0 x1 x2 x3 x4 x5 x6 (ix2 p q)
      = (((x2 (ix2 p (0 : Fin 3)) + x2 (ix2 p (1 : Fin 3)) * x0 (ix2 (0 : Fin 1) q))
            + (((x3 (ix2 p (⟨0 + q.val, by have := q.isLt; omega⟩ : Fin 2048))
                  + x3 (ix2 p (⟨512 + q.val, by have := q.isLt; omega⟩ : Fin 2048)))
                + x3 (ix2 p (⟨1024 + q.val, by have := q.isLt; omega⟩ : Fin 2048)))
              + x3 (ix2 p (⟨1536 + q.val, by have := q.isLt; omega⟩ : Fin 2048))))
          + ∑ k : Fin 8, coeffs x4 x5 (ix2 p k) * x6 (ix2 k q))
        + FloatOps.absf (F := Ideal) (φ := .f32) (x2 (ix2 p (2 : Fin 3)))
            * Ideal.div ((blockBefore zeroWord x1 p q + x1 (ix2 p q)) + blockAfter zeroWord x1 p q) threeWord := by
  unfold bodyValue k0_pay1 k0_pay3 k0_pay4 k0_pay6 k0_pay5 k0_pay2
  simp only [shapeCast_self, addf_apply, mulf_apply, divf_apply, broadcast_apply, select_apply]
  rw [along_time, along_time, along_time, down_stations, packed_col0, packed_col1, band0, band1, band2, band3, product_at]
  show _ + FloatOps.absf (F := Ideal) (φ := .f32) (extractStridedSlice S1200x1 ![0, 2] x2 slices_S1200x3_o0_2_S1200x1 (ix2 p (0 : Fin 1)))
        * Ideal.div ((Scalar.select (IntOp.cmpi .eq (iota .tc S1200x512 32 [1] iota_S1200x512_d1_w32 (ix2 p q)) 0#32) zeroWord
                (dynamicRotate 1 1#32 none x1 rotates_S1200x512_d1 (ix2 p q)) + x1 (ix2 p q))
            + Scalar.select (IntOp.cmpi .eq (iota .tc S1200x512 32 [1] iota_S1200x512_d1_w32 (ix2 p q)) 511#32) zeroWord
                (dynamicRotate 1 511#32 none x1 rotates_S1200x512_d1 (ix2 p q))) threeWord = _
  rw [packed_col2, masked_before, masked_after]
  rfl

end Cert.KernelIdeal.BodyAt

end
-- ==== Proof.IdealHost.lean ====
/-
  What the region finds in the arrays the host lines built, entry by entry.

  Four of the kernel's windows are cut from arrays the host lines computed from the arguments before the region:
  the time vector recast as one row; the seasonal bands recast from [30000, 4, 512] to [30000, 2048], band `h` at
  columns `512 h … 512 h + 511` (row-major order is kept); the offset, trend and noise-amplitude vectors stacked as
  the three columns of [30000, 3]; and the table [8, 512] whose row `h` is the sine and row `4 + h` the cosine of
  the angle of harmonic `h`, the angle being (2π · time) / clipped period exactly as the reference spells it.
-/
import proofs.«152955_j85779086835979_2_alg».proof.Proof.IdealFrame
import proofs.«152955_j85779086835979_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Found

open Cert.KernelIdeal Cert.KernelIdeal.Gen Cert.KernelIdeal.Frame Cert.Harmonic
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (c : Dev nD)

/-- The nine argument arrays on core `c`, as the program was started with them. -/
abbrev arg0 : S512.Idx → EReal := m ((c : Thread nD τ).loc main_arg0)
abbrev arg1 : S30000x512.Idx → EReal := m ((c : Thread nD τ).loc main_arg1)
abbrev arg2 : S30000.Idx → EReal := m ((c : Thread nD τ).loc main_arg2)
abbrev arg3 : S30000.Idx → EReal := m ((c : Thread nD τ).loc main_arg3)
abbrev arg4 : S30000x4x512.Idx → EReal := m ((c : Thread nD τ).loc main_arg4)
abbrev arg5 : S30000x4.Idx → EReal := m ((c : Thread nD τ).loc main_arg5)
abbrev arg6 : S30000x4.Idx → EReal := m ((c : Thread nD τ).loc main_arg6)
abbrev arg7 : S4.Idx → EReal := m ((c : Thread nD τ).loc main_arg7)
abbrev arg8 : S30000.Idx → EReal := m ((c : Thread nD τ).loc main_arg8)

/-! ## The two recasts -/

/-- The time row at column `q` is the time vector at `q`. -/
theorem time_at (q : Fin 512) : V m c main_v0 (ix2 (0 : Fin 1) q) = arg0 m c (ix1 q) := by
  have e : (V m c main_v0 : S1x512.Idx → EReal) = shapeCast S1x512 (arg0 m c) shapeCasts_S512_S1x512 := by
    dsimp only [V]
    simp only [hostOps0, hostOps0_1, hostOps0_2, List.flatten_cons, List.flatten_nil, List.append_nil, List.cons_append, List.nil_append]
    after_results_simp
    rfl
  rw [e]
  exact shapeCast_apply (arg0 m c) shapeCasts_S512_S1x512 (ix2 (0 : Fin 1) q) (ix1 q) (by
    rw [Shape.rowMajor_val_one, Shape.rowMajor_val_two]; show q.val = 0 * 512 + q.val; omega)

/-- The recast bands at row `n`, column `512 h + q`, are band `h` at `(n, q)`. -/
theorem bands_at (n : Fin 30000) (h : Fin 4) (q : Fin 512) (j : Fin 2048) (hj : j.val = 512 * h.val + q.val) :
    V m c main_v1 (ix2 n j) = arg4 m c (ix3 n h q) := by
  have e : (V m c main_v1 : S30000x2048.Idx → EReal) = shapeCast S30000x2048 (arg4 m c) shapeCasts_S30000x4x512_S30000x2048 := by
    dsimp only [V]
    simp only [hostOps0, hostOps0_1, hostOps0_2, List.flatten_cons, List.flatten_nil, List.append_nil, List.cons_append, List.nil_append]
    after_results_simp
    rfl
  rw [e]
  exact shapeCast_apply (arg4 m c) shapeCasts_S30000x4x512_S30000x2048 (ix2 n j) (ix3 n h q) (by
    rw [Shape.rowMajor_val_three, Shape.rowMajor_val_two]
    show (n.val * 4 + h.val) * 512 + q.val = n.val * 2048 + j.val
    omega)

/-! ## The three stacked columns -/

/-- A length-30000 vector laid as a column, at row `n`. -/
theorem column_at (v : S30000.Idx → EReal) (n : Fin 30000) :
    broadcastInDim S30000x1 ![0] bcast_S30000_S30000x1_0 v (ix2 n (0 : Fin 1)) = v (ix1 n) :=
  broadcastInDim_apply _ bcast_S30000_S30000x1_0 v (ix2 n (0 : Fin 1)) (ix1 n) (fun a => match a with
    | ⟨0, _⟩ => by show n.val = if (30000 : ℕ) = 1 then 0 else n.val; rw [if_neg (by decide)])

/-- Column 0 of the packed array is the offset. -/
theorem offset_at (n : Fin 30000) : V m c main_v5 (ix2 n (0 : Fin 3)) = arg2 m c (ix1 n) := by
  dsimp only [V]
  simp only [hostOps0, hostOps0_1, hostOps0_2, List.flatten_cons, List.flatten_nil, List.append_nil, List.cons_append, List.nil_append]
  after_results_simp
  refine (concatenate_apply_piece (1 : Fin 2) _ _ (ix2 n (0 : Fin 3)) 0 ?hk S30000x1 ?x1 ?hxk rfl 0 ?hpre
    (ix2 n (0 : Fin 1)) ?hi ?ha).trans ?_
  case hxk => rfl
  case hk => show (_ : ℕ) < 3; decide
  case hpre => rfl
  case hi =>
    intro b hb
    match b with
    | ⟨0, _⟩ => rfl
    | ⟨1, _⟩ => exact absurd rfl hb
  case ha => rfl
  show (StableHlo.unary main_arg2 main_v2 (broadcastInDim S30000x1 ![0] bcast_S30000_S30000x1_0) _ _).result _
      (Proc.devRef .tc main_v2) (ix2 n (0 : Fin 1)) = _
  after_results_simp
  exact column_at (arg2 m c) n

/-- Column 1 is the trend. -/
theorem trend_at (n : Fin 30000) : V m c main_v5 (ix2 n (1 : Fin 3)) = arg3 m c (ix1 n) := by
  dsimp only [V]
  simp only [hostOps0, hostOps0_1, hostOps0_2, List.flatten_cons, List.flatten_nil, List.append_nil, List.cons_append, List.nil_append]
  after_results_simp
  refine (concatenate_apply_piece (1 : Fin 2) _ _ (ix2 n (1 : Fin 3)) 1 ?hk S30000x1 ?x1 ?hxk rfl 1 ?hpre
    (ix2 n (0 : Fin 1)) ?hi ?ha).trans ?_
  case hxk => rfl
  case hk => show (_ : ℕ) < 3; decide
  case hpre => rfl
  case hi =>
    intro b hb
    match b with
    | ⟨0, _⟩ => rfl
    | ⟨1, _⟩ => exact absurd rfl hb
  case ha => rfl
  show (StableHlo.unary main_arg3 main_v3 (broadcastInDim S30000x1 ![0] bcast_S30000_S30000x1_0) _ _).result _
      (Proc.devRef .tc main_v3) (ix2 n (0 : Fin 1)) = _
  after_results_simp
  exact column_at (arg3 m c) n

/-- Column 2 is the noise amplitude. -/
theorem namp_at (n : Fin 30000) : V m c main_v5 (ix2 n (2 : Fin 3)) = arg8 m c (ix1 n) := by
  dsimp only [V]
  simp only [hostOps0, hostOps0_1, hostOps0_2, List.flatten_cons, List.flatten_nil, List.append_nil, List.cons_append, List.nil_append]
  after_results_simp
  refine (concatenate_apply_piece (1 : Fin 2) _ _ (ix2 n (2 : Fin 3)) 2 ?hk S30000x1 ?x1 ?hxk rfl 2 ?hpre
    (ix2 n (0 : Fin 1)) ?hi ?ha).trans ?_
  case hxk => rfl
  case hk => show (_ : ℕ) < 3; decide
  case hpre => rfl
  case hi =>
    intro b hb
    match b with
    | ⟨0, _⟩ => rfl
    | ⟨1, _⟩ => exact absurd rfl hb
  case ha => rfl
  show (StableHlo.unary main_arg8 main_v4 (broadcastInDim S30000x1 ![0] bcast_S30000_S30000x1_0) _ _).result _
      (Proc.devRef .tc main_v4) (ix2 n (0 : Fin 1)) = _
  after_results_simp
  exact column_at (arg8 m c) n

/-! ## The table of sines and cosines -/

/-- The angle table as the host lines compute it: 2π times the time row over the clipped period column. -/
def angleTable (a0 : S512.Idx → EReal) (a7 : S4.Idx → EReal) : S4x512.Idx → EReal :=
  Host.divf
    (broadcastInDim S4x512 ![0, 1] bcast_S1x512_S4x512_0_1
      (mulf (broadcastInDim S1x512 ![] bcast_S_S1x512 (constant (F := Ideal) S_ .f32 0x40C90FDB#32))
        (broadcastInDim S1x512 ![1] bcast_S512_S1x512_1 a0)))
    (broadcastInDim S4x512 ![0, 1] bcast_S4x1_S4x512_0_1
      (broadcastInDim S4x1 ![0] bcast_S4_S4x1_0
        (minimumf (broadcastInDim S4 ![] bcast_S_S4 (constant (F := Ideal) S_ .f32 0x43960000#32))
          (maximumf (broadcastInDim S4 ![] bcast_S_S4 (constant (F := Ideal) S_ .f32 0x41A00000#32)) a7))))

/-- A scalar constant splatted over a shape reads as the constant everywhere. -/
theorem splat_at {s : Shape} (hb : S_.BroadcastsInDim s ![]) (b : BitVec 32) (i : s.Idx) :
    broadcastInDim s ![] hb (constant (F := Ideal) S_ .f32 b) i = Ideal.ofBits .f32 b :=
  broadcastInDim_apply _ hb _ i (fun a => a.elim0) (fun a => a.elim0)

/-- The time vector laid as a row, at column `q`. -/
theorem time_row_at (a0 : S512.Idx → EReal) (q : Fin 512) :
    broadcastInDim S1x512 ![1] bcast_S512_S1x512_1 a0 (ix2 (0 : Fin 1) q) = a0 (ix1 q) :=
  broadcastInDim_apply _ bcast_S512_S1x512_1 a0 (ix2 (0 : Fin 1) q) (ix1 q) (fun a => match a with
    | ⟨0, _⟩ => by show q.val = if (512 : ℕ) = 1 then 0 else q.val; rw [if_neg (by decide)])

/-- Its entry for harmonic `h` at time step `q` is the angle as the specification spells it. -/
theorem angleTable_at (a0 : S512.Idx → EReal) (a7 : S4.Idx → EReal) (h : Fin 4) (q : Fin 512) :
    angleTable a0 a7 (ix2 h q) = angle a0 a7 h q := by
  unfold angleTable angle clipped twoPi lowBound highBound
  show Ideal.div
      (broadcastInDim S4x512 ![0, 1] bcast_S1x512_S4x512_0_1
        (mulf (broadcastInDim S1x512 ![] bcast_S_S1x512 (constant (F := Ideal) S_ .f32 0x40C90FDB#32))
          (broadcastInDim S1x512 ![1] bcast_S512_S1x512_1 a0)) (ix2 h q))
      (broadcastInDim S4x512 ![0, 1] bcast_S4x1_S4x512_0_1
        (broadcastInDim S4x1 ![0] bcast_S4_S4x1_0
          (minimumf (broadcastInDim S4 ![] bcast_S_S4 (constant (F := Ideal) S_ .f32 0x43960000#32))
            (maximumf (broadcastInDim S4 ![] bcast_S_S4 (constant (F := Ideal) S_ .f32 0x41A00000#32)) a7))) (ix2 h q)) = _
  rw [broadcastInDim_apply ![0, 1] bcast_S1x512_S4x512_0_1 _ (ix2 h q) (ix2 (0 : Fin 1) q) (fun a => match a with
      | ⟨0, _⟩ => by show (0 : ℕ) = if (1 : ℕ) = 1 then 0 else h.val; rw [if_pos rfl]
      | ⟨1, _⟩ => by show q.val = if (512 : ℕ) = 1 then 0 else q.val; rw [if_neg (by decide)]),
    broadcastInDim_apply ![0, 1] bcast_S4x1_S4x512_0_1 _ (ix2 h q) (ix2 h (0 : Fin 1)) (fun a => match a with
      | ⟨0, _⟩ => by show h.val = if (4 : ℕ) = 1 then 0 else h.val; rw [if_neg (by decide)]
      | ⟨1, _⟩ => by show (0 : ℕ) = if (1 : ℕ) = 1 then 0 else q.val; rw [if_pos rfl]),
    broadcastInDim_apply ![0] bcast_S4_S4x1_0 _ (ix2 h (0 : Fin 1)) (ix1 h) (fun a => match a with
      | ⟨0, _⟩ => by show h.val = if (4 : ℕ) = 1 then 0 else h.val; rw [if_neg (by decide)])]
  show Ideal.div
      (broadcastInDim S1x512 ![] bcast_S_S1x512 (constant (F := Ideal) S_ .f32 0x40C90FDB#32) (ix2 (0 : Fin 1) q)
        * broadcastInDim S1x512 ![1] bcast_S512_S1x512_1 a0 (ix2 (0 : Fin 1) q))
      (min (broadcastInDim S4 ![] bcast_S_S4 (constant (F := Ideal) S_ .f32 0x43960000#32) (ix1 h))
        (max (broadcastInDim S4 ![] bcast_S_S4 (constant (F := Ideal) S_ .f32 0x41A00000#32) (ix1 h)) (a7 (ix1 h)))) = _
  rw [splat_at, time_row_at, splat_at, splat_at]

set_option maxHeartbeats 1000000 in
/-- Row `h` of the table is the sine of the angle of harmonic `h`. -/
theorem table_sin_at (h : Fin 4) (q : Fin 512) :
    V m c main_v16 (ix2 (⟨h.val, by have := h.isLt; omega⟩ : Fin 8) q) = Ideal.sin (angle (arg0 m c) (arg7 m c) h q) := by
  dsimp only [V]
  simp only [hostOps0, hostOps0_1, hostOps0_2, List.flatten_cons, List.flatten_nil, List.append_nil, List.cons_append, List.nil_append]
  after_results_simp
  refine (concatenate_pair_apply_left (t := S8x512) (s₁ := S4x512) (s₂ := S4x512) (0 : Fin 2) _ _ _
    (ix2 (⟨h.val, by have := h.isLt; omega⟩ : Fin 8) q) rfl (ix2 h q) (fun b => ?_)).trans ?_
  · match b with
    | ⟨0, _⟩ => rfl
    | ⟨1, _⟩ => rfl
  · show Ideal.sin (angleTable (arg0 m c) (arg7 m c) (ix2 h q)) = _
    rw [angleTable_at]

set_option maxHeartbeats 1000000 in
/-- Row `4 + h` is the cosine. -/
theorem table_cos_at (h : Fin 4) (q : Fin 512) :
    V m c main_v16 (ix2 (⟨4 + h.val, by have := h.isLt; omega⟩ : Fin 8) q) = Ideal.cos (angle (arg0 m c) (arg7 m c) h q) := by
  dsimp only [V]
  simp only [hostOps0, hostOps0_1, hostOps0_2, List.flatten_cons, List.flatten_nil, List.append_nil, List.cons_append, List.nil_append]
  after_results_simp
  refine (concatenate_pair_apply_right (t := S8x512) (s₁ := S4x512) (s₂ := S4x512) (0 : Fin 2) _ _ _
    (ix2 (⟨4 + h.val, by have := h.isLt; omega⟩ : Fin 8) q) rfl rfl (ix2 h q) (fun b hb => ?_) ?_).trans ?_
  · match b with
    | ⟨0, _⟩ => exact absurd rfl hb
    | ⟨1, _⟩ => rfl
  · show h.val + 4 = 4 + h.val; omega
  · show Ideal.cos (angleTable (arg0 m c) (arg7 m c) (ix2 h q)) = _
    rw [angleTable_at]

end Cert.KernelIdeal.Found

end
-- ==== Proof.Law.lean ====
/-
  The one law that joins the two programs: the addition formula for the sine, with the amplitude distributed.

  For real amplitude `a`, phase `p` and angle `θ`,
      (a · cos p) · sin θ + (a · sin p) · cos θ = a · sin (θ + p).
  Over the extended reals this needs every quantity to be a real number: with an infinite amplitude the left side
  can be an indeterminate sum while the right side is not. With finite inputs the angle is real as well, because the
  period is clipped between two positive reals and so the division is by a nonzero real. The eight products of the
  kernel's small matrix product are the four left products followed by the four right ones, so their sum is the sum
  over the four harmonics of the left side; regrouping a finite sum needs no finiteness.
-/
import proofs.«152955_j85779086835979_2_alg».proof.Proof.Spec
import Idealize.ShloMosaic.PureOps.Ideal
import Mathlib.Analysis.SpecialFunctions.Trigonometric.Basic

noncomputable section

namespace Cert.Harmonic

open Idealize.ShloMosaic Idealize.ShloMosaic.ValueIdx

/-! ## The literals as real numbers -/

/-- The clip bounds are the reals 20 and 300; the 2π pattern is a real (its exact binary value). -/
theorem lowBound_eq : lowBound = ((20 : ℝ) : EReal) := by
  unfold lowBound
  simp [Ideal.ofBits, Ideal.ieee, -EReal.coe_mul]; norm_num
theorem highBound_eq : highBound = ((300 : ℝ) : EReal) := by
  unfold highBound
  simp [Ideal.ofBits, Ideal.ieee, -EReal.coe_mul]; norm_num
theorem twoPi_eq : twoPi = ((13176795 / 2097152 : ℝ) : EReal) := by
  unfold twoPi
  simp [Ideal.ofBits, Ideal.ieee, -EReal.coe_mul]; norm_num

/-! ## The angle is a real number -/

/-- A real period clipped between 20 and 300 is a real number that is at least 20. -/
theorem clipped_real (per : (⟨1, ![4]⟩ : Shape).Idx → EReal) (h : Fin 4) (r : ℝ) (hr : per (ix1 h) = (r : EReal)) :
    clipped per h = ((min 300 (max 20 r) : ℝ) : EReal) := by
  unfold clipped
  rw [hr, lowBound_eq, highBound_eq]
  exact ((EReal.coe_strictMono.monotone.map_min (a := (300 : ℝ)) (b := max 20 r)).trans
    (congrArg (min ((300 : ℝ) : EReal)) (EReal.coe_strictMono.monotone.map_max (a := (20 : ℝ)) (b := r)))).symm

/-- With a real time and a real period the angle is a real number. -/
theorem angle_real (tv : (⟨1, ![512]⟩ : Shape).Idx → EReal) (per : (⟨1, ![4]⟩ : Shape).Idx → EReal) (h : Fin 4) (q : Fin 512)
    (t r : ℝ) (ht : tv (ix1 q) = (t : EReal)) (hr : per (ix1 h) = (r : EReal)) :
    ∃ θ : ℝ, angle tv per h q = (θ : EReal) := by
  have hpos : (min 300 (max 20 r) : ℝ) ≠ 0 := by
    have : (20 : ℝ) ≤ min 300 (max 20 r) := le_min (by norm_num) (le_max_left _ _)
    intro e; rw [e] at this; norm_num at this
  refine ⟨(13176795 / 2097152 : ℝ) * t * (1 / min 300 (max 20 r)), ?_⟩
  unfold angle
  rw [clipped_real per h r hr, Ideal.div_coe hpos, twoPi_eq, ht, ← EReal.coe_mul, ← EReal.coe_mul]

/-! ## The addition formula under the coercion -/

/-- One harmonic: the two products of the kernel against the one of the reference, all quantities real. -/
theorem harmonic_term (a p θ : ℝ) :
    ((a : EReal) * Ideal.cos (p : EReal)) * Ideal.sin (θ : EReal) + ((a : EReal) * Ideal.sin (p : EReal)) * Ideal.cos (θ : EReal)
      = (a : EReal) * Ideal.sin ((θ : EReal) + (p : EReal)) := by
  rw [Ideal.cos_coe, Ideal.sin_coe, Ideal.sin_coe, Ideal.cos_coe, ← EReal.coe_add, Ideal.sin_coe,
    ← EReal.coe_mul, ← EReal.coe_mul, ← EReal.coe_mul, ← EReal.coe_mul, ← EReal.coe_mul, ← EReal.coe_add, Real.sin_add]
  congr 1
  ring

/-- A sum of eight terms is the sum of the first four plus the sum of the last four. -/
theorem sum_eight_split {M : Type*} [AddCommMonoid M] (f : Fin 8 → M) :
    ∑ k : Fin 8, f k
      = ∑ h : Fin 4, f ⟨h.val, by have := h.isLt; omega⟩ + ∑ h : Fin 4, f ⟨4 + h.val, by have := h.isLt; omega⟩ := by
  rw [Fin.sum_univ_eight, Fin.sum_univ_four, Fin.sum_univ_four]
  show f 0 + f 1 + f 2 + f 3 + f 4 + f 5 + f 6 + f 7 = (f 0 + f 1 + f 2 + f 3) + (f 4 + f 5 + f 6 + f 7)
  abel

/-- The eight products summed are the four sinusoids summed from zero, when amplitude, phase and angle of each
    harmonic are real numbers. `C` are the eight coefficients, `T` the eight table entries. -/
theorem harmonic_sum (C T : Fin 8 → EReal) (amp ph ang : Fin 4 → EReal)
    (hC0 : ∀ h : Fin 4, C ⟨h.val, by have := h.isLt; omega⟩ = amp h * Ideal.cos (ph h))
    (hC1 : ∀ h : Fin 4, C ⟨4 + h.val, by have := h.isLt; omega⟩ = amp h * Ideal.sin (ph h))
    (hT0 : ∀ h : Fin 4, T ⟨h.val, by have := h.isLt; omega⟩ = Ideal.sin (ang h))
    (hT1 : ∀ h : Fin 4, T ⟨4 + h.val, by have := h.isLt; omega⟩ = Ideal.cos (ang h))
    (ha : ∀ h, ∃ a : ℝ, amp h = (a : EReal)) (hp : ∀ h, ∃ p : ℝ, ph h = (p : EReal)) (hθ : ∀ h, ∃ θ : ℝ, ang h = (θ : EReal)) :
    ∑ k : Fin 8, C k * T k = 0 + ∑ h : Fin 4, amp h * Ideal.sin (ang h + ph h) := by
  rw [sum_eight_split, zero_add, ← Finset.sum_add_distrib]
  refine Finset.sum_congr rfl fun h _ => ?_
  obtain ⟨a, ea⟩ := ha h
  obtain ⟨p, ep⟩ := hp h
  obtain ⟨θ, eθ⟩ := hθ h
  rw [hC0, hC1, hT0, hT1, ea, ep, eθ]
  exact harmonic_term a p θ

end Cert.Harmonic

end
-- ==== Proof.Finite.lean ====
/-
  From the precondition to "every entry of every input is a real number".

  The precondition says, of each of the nine input arrays, that the absolute value of every entry is below plus
  infinity, and joins the nine statements by "and". An extended real whose absolute value is below plus infinity is
  neither infinity, hence a real number.
-/
import proofs.«152955_j85779086835979_2_alg».proof.Pre_finite_inputs
import proofs.«152955_j85779086835979_2_alg».proof.Proof.Gen.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal

set_option maxRecDepth 16384

noncomputable section

namespace Cert.Pre_finite_inputs.Finite

open Cert.Pre_finite_inputs Idealize.ShloMosaic Idealize.ShloMosaic.ValueIdx

/-- The result of a reduction to a scalar has one index. -/
instance : Subsingleton S_.Idx := ⟨fun a b => funext fun d => d.elim0⟩

/-- An extended real is a real number. -/
def IsReal (x : EReal) : Prop := ∃ r : ℝ, x = (r : EReal)

/-- An extended real whose absolute value compares below the plus-infinity pattern is a real number. -/
theorem real_of_below_inf (x : EReal)
    (h : FloatOps.cmpf (F := Ideal) .olt (FloatOps.hostAbsf (F := Ideal) (φ := .f32) x) (FloatOps.ofBits (F := Ideal) .f32 0x7F800000#32) = 1#1) :
    IsReal x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    unfold Ideal.cmp at h'
    simp [hn] at h'
  rw [max_lt_iff] at hlt
  have h1 : x ≠ ⊤ := ne_of_lt hlt.1
  have h2 : x ≠ ⊥ := by
    intro e
    rw [e] at hlt
    simp at hlt
  exact ⟨x.toReal, (EReal.coe_toReal h1 h2).symm⟩

/-- The plus-infinity pattern splatted over a shape reads as the pattern everywhere. -/
theorem splat_inf {s : Shape} (h : S_.BroadcastsInDim s ![]) (i : s.Idx) :
    broadcastInDim s ![] h (constant (F := Ideal) S_ .f32 0x7F800000#32) i = FloatOps.ofBits (F := Ideal) .f32 0x7F800000#32 :=
  broadcastInDim_apply _ h _ i (fun a => a.elim0) (fun a => a.elim0)

/-- One "all entries are below plus infinity": every entry is a real number. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant (F := Ideal) S_ .f32 0x7F800000#32)))
          (constantI S_ 1 1#1) hr hu ix0 = 1#1) (i : s.Idx) : IsReal (x i) := by
  have e := Host.reduce_andi_all _ _ hr hu ix0 h i
  refine real_of_below_inf (x i) ?_
  have e' : FloatOps.cmpf (F := Ideal) .olt (FloatOps.hostAbsf (F := Ideal) (φ := .f32) (x i))
      (broadcastInDim s ![] hb (constant (F := Ideal) S_ .f32 0x7F800000#32) i) = 1#1 := e
  rw [splat_inf] at e'
  exact e'

/-- Under the precondition every entry of each of the nine inputs is a real number. -/
theorem real_of_pre (a0 : FVec Ideal S512 .f32) (a1 : FVec Ideal S30000x512 .f32) (a2 a3 : FVec Ideal S30000 .f32)
    (a4 : FVec Ideal S30000x4x512 .f32) (a5 a6 : FVec Ideal S30000x4 .f32) (a7 : FVec Ideal S4 .f32) (a8 : FVec Ideal S30000 .f32)
    (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [fn, fn_part1, fn_part2] at h0
  obtain ⟨h0, r8⟩ := IntOp.andi_eq_one.1 (show IntOp.andi _ _ = 1#1 from h0)
  obtain ⟨h0, r7⟩ := IntOp.andi_eq_one.1 (show IntOp.andi _ _ = 1#1 from h0)
  obtain ⟨h0, r6⟩ := IntOp.andi_eq_one.1 (show IntOp.andi _ _ = 1#1 from h0)
  obtain ⟨h0, r5⟩ := IntOp.andi_eq_one.1 (show IntOp.andi _ _ = 1#1 from h0)
  obtain ⟨h0, r4⟩ := IntOp.andi_eq_one.1 (show IntOp.andi _ _ = 1#1 from h0)
  obtain ⟨h0, r3⟩ := IntOp.andi_eq_one.1 (show IntOp.andi _ _ = 1#1 from h0)
  obtain ⟨h0, r2⟩ := IntOp.andi_eq_one.1 (show IntOp.andi _ _ = 1#1 from h0)
  obtain ⟨r0, r1⟩ := IntOp.andi_eq_one.1 (show IntOp.andi _ _ = 1#1 from h0)
  exact ⟨all_real a0 _ _ _ r0, all_real a1 _ _ _ r1, all_real a2 _ _ _ r2, all_real a3 _ _ _ r3, all_real a4 _ _ _ r4,
    all_real a5 _ _ _ r5, all_real a6 _ _ _ r6, all_real a7 _ _ _ r7, all_real a8 _ _ _ r8⟩

end Cert.Pre_finite_inputs.Finite

end
-- ==== Proof.IdealValue.lean ====
/-
  The kernel's result array is the specified one.

  The grid has 25 points; at point `t` the row-blocked windows hold rows `1200 t … 1200 t + 1199` of their arrays and
  the two fixed windows (the time row and the table) hold their whole arrays. So entry `(p, q)` of a block is entry
  `(1200 t + p, q)` of the array. Substituting this, and what the host lines put in the arrays they built, into the
  body's value at `(p, q)` gives the specified result at station `1200 t + p`, time step `q`: the four bands added
  left to right are their sum from zero; the eight coefficient-times-table products are the four sinusoids, by the
  addition formula on real numbers; the two outer neighbours of the noise row are filled with zero at the ends. The
  25 blocks of the output window are disjoint and cover the 30000 rows, so after the run the output array holds
  the specified result everywhere.
-/
import proofs.«152955_j85779086835979_2_alg».proof.Proof.IdealBodyAt
import proofs.«152955_j85779086835979_2_alg».proof.Proof.IdealHost
import proofs.«152955_j85779086835979_2_alg».proof.Proof.Law
import proofs.«152955_j85779086835979_2_alg».proof.Proof.Finite
import Idealize.ShloMosaic.Lib.Pipeline.Value
import Idealize.ShloMosaic.PureOps.Ideal.Laws

set_option maxRecDepth 16384

noncomputable section

namespace Cert.KernelIdeal.Result

open Cert.KernelIdeal Cert.KernelIdeal.Gen Cert.KernelIdeal.Frame Cert.KernelIdeal.BodyAt Cert.KernelIdeal.Found Cert.Harmonic
open Cert.Pre_finite_inputs.Finite (IsReal)
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-- The specified result of the nine arguments on core `c`. -/
def spec : S30000x512.Idx → EReal :=
  result (arg0 m c) (arg1 m c) (arg2 m c) (arg3 m c) (arg4 m c) (arg5 m c) (arg6 m c) (arg7 m c) (arg8 m c)

/-- Every entry of every argument on core `c` is a real number. -/
def AllReal : Prop :=
  (∀ i, IsReal (arg0 m c i)) ∧ (∀ i, IsReal (arg1 m c i)) ∧ (∀ i, IsReal (arg2 m c i)) ∧ (∀ i, IsReal (arg3 m c i))
    ∧ (∀ i, IsReal (arg4 m c i)) ∧ (∀ i, IsReal (arg5 m c i)) ∧ (∀ i, IsReal (arg6 m c i)) ∧ (∀ i, IsReal (arg7 m c i))
    ∧ (∀ i, IsReal (arg8 m c i))

/-! ## Which rows a block holds -/

/-- The block index of every window at every grid point: the point's number along the rows for the row-blocked
    windows, zero for the two fixed ones; zero along the columns for all. -/
theorem idx_facts : ∀ t : Fin cfg0.N,
    win0_0.index t (0 : Fin 2) = 0
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

theorem point_lt (t : Fin cfg0.N) : t.val < 25 := lt_of_lt_of_eq t.isLt N_0

/-- Row `p` of the block at point `t` is row `1200 t + p` of the array. -/
def row (t : Fin cfg0.N) (p : Fin 1200) : Fin 30000 :=
  ⟨1200 * t.val + p.val, by have := point_lt t; have := p.isLt; omega⟩

/-- The time window holds the whole time row at every point. -/
theorem time_blk (t : Fin cfg0.N) (p : Fin 1) (q : Fin 512) :
    iblk m c 0 t (ix2 p q) = V m c main_v0 (ix2 p q) := by
  obtain ⟨f0, f1, f2, f3, f4, f5, f6, f7, f8, f9, f10, f11, f12, f13, f14, f15⟩ := idx_facts t
  show V m c main_v0 (((cfg0.win 0).blk t).view.emb (ix2 p q)) = _
  refine congrArg (V m c main_v0) (funext fun a => Fin.ext ?_)
  match a with
  | ⟨0, _⟩ => show win0_0.index t (0 : Fin 2) * 1 + 1 * p.val = p.val; omega
  | ⟨1, _⟩ => show win0_0.index t (1 : Fin 2) * 512 + 1 * q.val = q.val; omega
/-- The noise block. -/
theorem noise_blk (t : Fin cfg0.N) (p : Fin 1200) (q : Fin 512) :
    iblk m c 1 t (ix2 p q) = V m c main_arg1 (ix2 (row t p) q) := by
  obtain ⟨f0, f1, f2, f3, f4, f5, f6, f7, f8, f9, f10, f11, f12, f13, f14, f15⟩ := idx_facts t
  show V m c main_arg1 (((cfg0.win 1).blk t).view.emb (ix2 p q)) = _
  refine congrArg (V m c main_arg1) (funext fun a => Fin.ext ?_)
  match a with
  | ⟨0, _⟩ => show win0_1.index t (0 : Fin 2) * 1200 + 1 * p.val = 1200 * t.val + p.val; omega
  | ⟨1, _⟩ => show win0_1.index t (1 : Fin 2) * 512 + 1 * q.val = q.val; omega
/-- The packed block. -/
theorem packed_blk (t : Fin cfg0.N) (p : Fin 1200) (q : Fin 3) :
    iblk m c 2 t (ix2 p q) = V m c main_v5 (ix2 (row t p) q) := by
  obtain ⟨f0, f1, f2, f3, f4, f5, f6, f7, f8, f9, f10, f11, f12, f13, f14, f15⟩ := idx_facts t
  show V m c main_v5 (((cfg0.win 2).blk t).view.emb (ix2 p q)) = _
  refine congrArg (V m c main_v5) (funext fun a => Fin.ext ?_)
  match a with
  | ⟨0, _⟩ => show win0_2.index t (0 : Fin 2) * 1200 + 1 * p.val = 1200 * t.val + p.val; omega
  | ⟨1, _⟩ => show win0_2.index t (1 : Fin 2) * 3 + 1 * q.val = q.val; omega
/-- The seasonal block. -/
theorem bands_blk (t : Fin cfg0.N) (p : Fin 1200) (q : Fin 2048) :
    iblk m c 3 t (ix2 p q) = V m c main_v1 (ix2 (row t p) q) := by
  obtain ⟨f0, f1, f2, f3, f4, f5, f6, f7, f8, f9, f10, f11, f12, f13, f14, f15⟩ := idx_facts t
  show V m c main_v1 (((cfg0.win 3).blk t).view.emb (ix2 p q)) = _
  refine congrArg (V m c main_v1) (funext fun a => Fin.ext ?_)
  match a with
  | ⟨0, _⟩ => show win0_3.index t (0 : Fin 2) * 1200 + 1 * p.val = 1200 * t.val + p.val; omega
  | ⟨1, _⟩ => show win0_3.index t (1 : Fin 2) * 2048 + 1 * q.val = q.val; omega
/-- The amplitude block. -/
theorem amp_blk (t : Fin cfg0.N) (p : Fin 1200) (q : Fin 4) :
    iblk m c 4 t (ix2 p q) = V m c main_arg5 (ix2 (row t p) q) := by
  obtain ⟨f0, f1, f2, f3, f4, f5, f6, f7, f8, f9, f10, f11, f12, f13, f14, f15⟩ := idx_facts t
  show V m c main_arg5 (((cfg0.win 4).blk t).view.emb (ix2 p q)) = _
  refine congrArg (V m c main_arg5) (funext fun a => Fin.ext ?_)
  match a with
  | ⟨0, _⟩ => show win0_4.index t (0 : Fin 2) * 1200 + 1 * p.val = 1200 * t.val + p.val; omega
  | ⟨1, _⟩ => show win0_4.index t (1 : Fin 2) * 4 + 1 * q.val = q.val; omega
/-- The phase block. -/
theorem phase_blk (t : Fin cfg0.N) (p : Fin 1200) (q : Fin 4) :
    iblk m c 5 t (ix2 p q) = V m c main_arg6 (ix2 (row t p) q) := by
  obtain ⟨f0, f1, f2, f3, f4, f5, f6, f7, f8, f9, f10, f11, f12, f13, f14, f15⟩ := idx_facts t
  show V m c main_arg6 (((cfg0.win 5).blk t).view.emb (ix2 p q)) = _
  refine congrArg (V m c main_arg6) (funext fun a => Fin.ext ?_)
  match a with
  | ⟨0, _⟩ => show win0_5.index t (0 : Fin 2) * 1200 + 1 * p.val = 1200 * t.val + p.val; omega
  | ⟨1, _⟩ => show win0_5.index t (1 : Fin 2) * 4 + 1 * q.val = q.val; omega
/-- The table window holds the whole table at every point. -/
theorem table_blk (t : Fin cfg0.N) (p : Fin 8) (q : Fin 512) :
    iblk m c 6 t (ix2 p q) = V m c main_v16 (ix2 p q) := by
  obtain ⟨f0, f1, f2, f3, f4, f5, f6, f7, f8, f9, f10, f11, f12, f13, f14, f15⟩ := idx_facts t
  show V m c main_v16 (((cfg0.win 6).blk t).view.emb (ix2 p q)) = _
  refine congrArg (V m c main_v16) (funext fun a => Fin.ext ?_)
  match a with
  | ⟨0, _⟩ => show win0_6.index t (0 : Fin 2) * 8 + 1 * p.val = p.val; omega
  | ⟨1, _⟩ => show win0_6.index t (1 : Fin 2) * 512 + 1 * q.val = q.val; omega

/-! ## The coefficients and the neighbours, block against array -/

/-- Coefficient `h` of a station row is amplitude times the cosine of the phase; coefficient `4 + h` amplitude times
    the sine. -/
theorem coeffs_left (x4 x5 : FVec Ideal S1200x4 .f32) (p : Fin 1200) (h : Fin 4) :
    coeffs x4 x5 (ix2 p (⟨h.val, by have := h.isLt; omega⟩ : Fin 8)) = x4 (ix2 p h) * Ideal.cos (x5 (ix2 p h)) := by
  unfold coeffs
  refine (concatenate_pair_apply_left (t := S1200x8) (s₁ := S1200x4) (s₂ := S1200x4) (1 : Fin 2) _ _ _
    (ix2 p (⟨h.val, by have := h.isLt; omega⟩ : Fin 8)) rfl (ix2 p h) (fun b => ?_)).trans ?_
  · match b with
    | ⟨0, _⟩ => rfl
    | ⟨1, _⟩ => rfl
  · rfl
theorem coeffs_right (x4 x5 : FVec Ideal S1200x4 .f32) (p : Fin 1200) (h : Fin 4) :
    coeffs x4 x5 (ix2 p (⟨4 + h.val, by have := h.isLt; omega⟩ : Fin 8)) = x4 (ix2 p h) * Ideal.sin (x5 (ix2 p h)) := by
  unfold coeffs
  refine (concatenate_pair_apply_right (t := S1200x8) (s₁ := S1200x4) (s₂ := S1200x4) (1 : Fin 2) _ _ _
    (ix2 p (⟨4 + h.val, by have := h.isLt; omega⟩ : Fin 8)) rfl rfl (ix2 p h) (fun b hb => ?_) ?_).trans ?_
  · match b with
    | ⟨0, _⟩ => rfl
    | ⟨1, _⟩ => exact absurd rfl hb
  · show h.val + 4 = 4 + h.val; omega
  · rfl

/-! ## One entry, over any blocks with the right entries -/

section Generic

variable (x0 : Vec Ideal S1x512 .f32) (x1 : Vec Ideal S1200x512 .f32) (x2 : Vec Ideal S1200x3 .f32)
  (x3 : Vec Ideal S1200x2048 .f32) (x4 x5 : Vec Ideal S1200x4 .f32) (x6 : Vec Ideal S8x512 .f32)
  (a0 : S512.Idx → EReal) (a1 : S30000x512.Idx → EReal) (a2 a3 : S30000.Idx → EReal) (a4 : S30000x4x512.Idx → EReal)
  (a5 a6 : S30000x4.Idx → EReal) (a7 : S4.Idx → EReal) (a8 : S30000.Idx → EReal)
  (n : Fin 30000) (p : Fin 1200) (q : Fin 512)

/-- The filled-in neighbours in a noise block whose row `p` is row `n` of the noise array. -/
theorem before_of_row (h1 : ∀ q' : Fin 512, x1 (ix2 p q') = a1 (ix2 n q')) :
    blockBefore zeroWord x1 p q = before a1 n q := by
  unfold blockBefore before
  by_cases h0 : q.val = 0
  · rw [dif_pos h0, dif_pos h0]; exact Ideal.ofBits_zero_f32
  · rw [dif_neg h0, dif_neg h0, h1]
theorem after_of_row (h1 : ∀ q' : Fin 512, x1 (ix2 p q') = a1 (ix2 n q')) :
    blockAfter zeroWord x1 p q = after a1 n q := by
  unfold blockAfter after
  by_cases h0 : q.val = 511
  · rw [dif_pos h0, dif_pos h0]; exact Ideal.ofBits_zero_f32
  · rw [dif_neg h0, dif_neg h0, h1]

/-- If row `p` of the blocks is station `n` of the arrays (the packed columns being offset, trend and noise
    amplitude; the seasonal columns the four bands; the table rows the sines and cosines of the angles) and every
    quantity entering the sinusoids is a real number, the body's value at `(p, q)` is the specified result at
    `(n, q)`. -/
theorem entry_of_rows
    (h2a : x2 (ix2 p (0 : Fin 3)) = a2 (ix1 n)) (h2b : x2 (ix2 p (1 : Fin 3)) = a3 (ix1 n)) (h2c : x2 (ix2 p (2 : Fin 3)) = a8 (ix1 n))
    (h0 : x0 (ix2 (0 : Fin 1) q) = a0 (ix1 q))
    (h3 : ∀ (h : Fin 4) (j : Fin 2048), j.val = 512 * h.val + q.val → x3 (ix2 p j) = a4 (ix3 n h q))
    (h1 : ∀ q' : Fin 512, x1 (ix2 p q') = a1 (ix2 n q'))
    (h4 : ∀ h : Fin 4, x4 (ix2 p h) = a5 (ix2 n h)) (h5 : ∀ h : Fin 4, x5 (ix2 p h) = a6 (ix2 n h))
    (h6s : ∀ h : Fin 4, x6 (ix2 (⟨h.val, by have := h.isLt; omega⟩ : Fin 8) q) = Ideal.sin (angle a0 a7 h q))
    (h6c : ∀ h : Fin 4, x6 (ix2 (⟨4 + h.val, by have := h.isLt; omega⟩ : Fin 8) q) = Ideal.cos (angle a0 a7 h q))
    (r0 : ∀ i, IsReal (a0 i)) (r5 : ∀ i, IsReal (a5 i)) (r6 : ∀ i, IsReal (a6 i)) (r7 : ∀ i, IsReal (a7 i)) :
    bodyValue x0 x1 x2 x3 x4 x5 x6 (ix2 p q) = resultAt a0 a1 a2 a3 a4 a5 a6 a7 a8 n q := by
  refine (bodyValue_at p q x0 x1 x2 x3 x4 x5 x6).trans ?_
  have hbands : ((x3 (ix2 p (⟨0 + q.val, by have := q.isLt; omega⟩ : Fin 2048))
        + x3 (ix2 p (⟨512 + q.val, by have := q.isLt; omega⟩ : Fin 2048)))
        + x3 (ix2 p (⟨1024 + q.val, by have := q.isLt; omega⟩ : Fin 2048)))
        + x3 (ix2 p (⟨1536 + q.val, by have := q.isLt; omega⟩ : Fin 2048))
      = 0 + ∑ h : Fin 4, a4 (ix3 n h q) := by
    rw [h3 0 _ (by show 0 + q.val = 512 * 0 + q.val; omega), h3 1 _ (by show 512 + q.val = 512 * 1 + q.val; omega),
      h3 2 _ (by show 1024 + q.val = 512 * 2 + q.val; omega), h3 3 _ (by show 1536 + q.val = 512 * 3 + q.val; omega),
      Fin.sum_univ_four, zero_add]
  have hharm : ∑ k : Fin 8, coeffs x4 x5 (ix2 p k) * x6 (ix2 k q) = harmonics a0 a5 a6 a7 n q := by
    unfold harmonics
    refine harmonic_sum _ _ (fun h => a5 (ix2 n h)) (fun h => a6 (ix2 n h)) (fun h => angle a0 a7 h q) ?_ ?_ ?_ ?_ ?_ ?_ ?_
    · intro h; rw [coeffs_left, h4, h5]
    · intro h; rw [coeffs_right, h4, h5]
    · intro h; exact h6s h
    · intro h; exact h6c h
    · intro h; exact r5 _
    · intro h; exact r6 _
    · intro h
      obtain ⟨t', ht'⟩ := r0 (ix1 q)
      obtain ⟨r, hr⟩ := r7 (ix1 h)
      exact angle_real _ _ h q t' r ht' hr
  rw [hbands, hharm, h2a, h2b, h2c, h0, before_of_row x1 a1 n p q h1, after_of_row x1 a1 n p q h1, h1]
  rfl

end Generic

/-! ## One entry of a block -/

/-- With every input entry a real number, the body's value at row `p`, time step `q` of the block at point `t` is
    the specified result at station `1200 t + p`, time step `q`. -/
theorem block_entry (hR : AllReal m c) (t : Fin cfg0.N) (p : Fin 1200) (q : Fin 512) :
    bodyValue (iblk m c 0 t) (iblk m c 1 t) (iblk m c 2 t) (iblk m c 3 t) (iblk m c 4 t) (iblk m c 5 t) (iblk m c 6 t) (ix2 p q)
      = spec m c (ix2 (row t p) q) := by
  obtain ⟨r0, r1, r2, r3, r4, r5, r6, r7, r8⟩ := hR
  exact entry_of_rows (iblk m c 0 t) (iblk m c 1 t) (iblk m c 2 t) (iblk m c 3 t) (iblk m c 4 t) (iblk m c 5 t) (iblk m c 6 t)
    (arg0 m c) (arg1 m c) (arg2 m c) (arg3 m c) (arg4 m c) (arg5 m c) (arg6 m c) (arg7 m c) (arg8 m c) (row t p) p q
    ((packed_blk m c t p 0).trans (offset_at m c _)) ((packed_blk m c t p 1).trans (trend_at m c _))
    ((packed_blk m c t p 2).trans (namp_at m c _))
    ((time_blk m c t 0 q).trans (time_at m c q))
    (fun h j hj => (bands_blk m c t p j).trans (bands_at m c (row t p) h q j hj))
    (fun q' => (noise_blk m c t p q').trans (congrFun (V_main_arg1 m c) _))
    (fun h => (amp_blk m c t p h).trans (congrFun (V_main_arg5 m c) _))
    (fun h => (phase_blk m c t p h).trans (congrFun (V_main_arg6 m c) _))
    (fun h => (table_blk m c t _ q).trans (table_sin_at m c h q))
    (fun h => (table_blk m c t _ q).trans (table_cos_at m c h q))
    r0 r5 r6 r7

/-! ## The whole array -/

/-- What point `t` writes back is block `t` of the specified result. -/
theorem flushed_eq (hR : AllReal m c) (t : Fin cfg0.N) :
    (dats m 0 c).flushed 7 t = ((cfg0.win 7).blk t).view.read (Elt Ideal) (spec m c) := by
  show (cfg0.win 7).cut (grid0.coords t) ((dats m 0 c).after 7 t) = _
  rw [after0_7]
  unfold outAt0
  rw [out0_7_eq]
  funext y
  obtain ⟨p, q, rfl⟩ : ∃ (p : Fin 1200) (q : Fin 512), y = ix2 p q := ⟨y 0, y 1, eq_ix2 y⟩
  refine (block_entry m c hR t p q).trans ?_
  obtain ⟨f0, f1, f2, f3, f4, f5, f6, f7, f8, f9, f10, f11, f12, f13, f14, f15⟩ := idx_facts t
  show spec m c (ix2 (row t p) q) = spec m c (((cfg0.win 7).blk t).view.emb (ix2 p q))
  refine congrArg (spec m c) (funext fun a => Fin.ext ?_)
  match a with
  | ⟨0, _⟩ => show 1200 * t.val + p.val = win0_7.index t (0 : Fin 2) * 1200 + 1 * p.val; omega
  | ⟨1, _⟩ => show q.val = win0_7.index t (1 : Fin 2) * 512 + 1 * q.val; omega

/-- An index of the result array is in point `t`'s block exactly when each coordinate is in the block's range. -/
theorem mem_blk (t : Fin cfg0.N) (i : S30000x512.Idx) :
    i ∈ ((cfg0.win 7).blk t).view.set ↔ ∀ a : Fin 2, win0_7.index t a * S1200x512.size a ≤ (i a).val
      ∧ (i a).val < win0_7.index t a * S1200x512.size a + S1200x512.size a := by
  show i ∈ ((View.whole main_v17).slice (win0_7.rect t)).set ↔ _
  rw [View.set_slice_whole, Rect.mem_set_unit]
  exact Iff.rfl

/-- Every station row lies in the block of the point numbered by the row divided by 1200. -/
theorem covered (i : S30000x512.Idx) :
    ∃ t : Fin cfg0.N, (cfg0.win 7).flush t = true ∧ i ∈ ((cfg0.win 7).blk t).view.set := by
  have hi0 : (i 0).val < 30000 := (i 0).isLt
  have hi1 : (i 1).val < 512 := (i 1).isLt
  have hlt : (i 0).val / 1200 < cfg0.N := lt_of_lt_of_eq (by omega : (i 0).val / 1200 < 25) N_0.symm
  obtain ⟨f0, f1, f2, f3, f4, f5, f6, f7, f8, f9, f10, f11, f12, f13, f14, f15⟩ := idx_facts ⟨(i 0).val / 1200, hlt⟩
  refine ⟨⟨(i 0).val / 1200, hlt⟩, flush0_7 _, ?_⟩
  rw [mem_blk]
  intro a
  match a with
  | ⟨0, _⟩ =>
    show win0_7.index ⟨(i 0).val / 1200, hlt⟩ (0 : Fin 2) * 1200 ≤ (i 0).val
      ∧ (i 0).val < win0_7.index ⟨(i 0).val / 1200, hlt⟩ (0 : Fin 2) * 1200 + 1200
    have e : win0_7.index ⟨(i 0).val / 1200, hlt⟩ (0 : Fin 2) = (i 0).val / 1200 := f14
    omega
  | ⟨1, _⟩ =>
    show win0_7.index ⟨(i 0).val / 1200, hlt⟩ (1 : Fin 2) * 512 ≤ (i 1).val
      ∧ (i 1).val < win0_7.index ⟨(i 0).val / 1200, hlt⟩ (1 : Fin 2) * 512 + 512
    omega

/-- After the run the result array holds the specified result. -/
theorem final (hR : AllReal m c) : (dats m 0 c).arrAt 7 cfg0.N = spec m c :=
  (dats m 0 c).arrAt_eq_of_cover 7 (spec m c) (fun t _ => flushed_eq m c hR t) (covered)

/-! ## The run, read -/

/-- With every input entry real on every core: the kernel runs to the end, its result array holds the specified
    result, and its nine arguments are unchanged. -/
theorem run (hR : ∀ c, AllReal m c) :
    θ_run defs (onTc (τ := τ) (main (F := Ideal))) ⟨m, fun _ => 0, ρ⟩ fun r => ∀ c : Dev nD,
      r.2.mem ((c.tc : Thread nD τ).loc main_v17) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 7).trans (final m c (hR c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Result

end
-- ==== Proof.lean ====
/-
  The certificate of one kernel against its plain reference.

  The kernel adds, for each of 30000 stations and 512 time steps, an offset plus a trend times the time, the sum of
  four seasonal bands, a sum of four sinusoids of clipped period with a per-station amplitude and phase, and the
  station's absolute noise amplitude times a zero-padded three-tap average of its noise row. The reference computes
  the sinusoids directly as amplitude times sin(angle + phase); the kernel expands each by the addition formula into
  (amplitude cos phase) sin(angle) + (amplitude sin phase) cos(angle) and sums the eight products as one small matrix
  product against a table of sin(angle) and cos(angle). On finite inputs every quantity is a real number and the
  two are equal by the addition formula and distributivity; everything else differs only by the order of sums and
  by layout.

  The three frames: each program runs to the end without a fault and leaves its nine argument arrays unchanged.
  For the two kernel programs this is the launch of the one region after three stretches of host lines none of
  which writes an argument; for the reference it is the run of its straight line of host operations.
-/
import proofs.«152955_j85779086835979_2_alg».proof.Defs
import proofs.«152955_j85779086835979_2_alg».proof.Proof.Gen.Kernel
import proofs.«152955_j85779086835979_2_alg».proof.Proof.Gen.KernelIdeal
import proofs.«152955_j85779086835979_2_alg».proof.Proof.Gen.ReferenceIdeal
import proofs.«152955_j85779086835979_2_alg».proof.Proof.Gen.ReferenceIdeal.Run
import proofs.«152955_j85779086835979_2_alg».proof.Proof.Gen.ReferenceIdeal.Read
import proofs.«152955_j85779086835979_2_alg».proof.Proof.Gen.Pre_finite_inputs
import proofs.«152955_j85779086835979_2_alg».proof.Proof.BitsFrame
import proofs.«152955_j85779086835979_2_alg».proof.Proof.IdealFrame
import proofs.«152955_j85779086835979_2_alg».proof.Proof.RefValue
import proofs.«152955_j85779086835979_2_alg».proof.Proof.IdealValue
import Idealize.ShloMosaic.Adequacy
import Idealize.ShloMosaic.Init

noncomputable section

namespace Cert.Proof

open Idealize.ShloMosaic Idealize.SL.Sem

/-- The word-level kernel runs to the end and leaves its arguments unchanged. -/
theorem frame_kernel : @Cert.frame_Kernel Cert.Kernel.Gen.facts Cert.Pre_finite_inputs.Gen.facts :=
  fun m ρ _ => Cert.Kernel.Frame.frame m ρ

/-- So does the kernel read over the extended reals. -/
theorem frame_kernel_ideal : @Cert.frame_KernelIdeal Cert.KernelIdeal.Gen.facts Cert.Pre_finite_inputs.Gen.facts :=
  fun m ρ _ => Cert.KernelIdeal.Frame.frame m ρ

/-- The reference is a straight line of host operations: its run, with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

/-- From memories agreeing on the arguments, both programs end with the same result array. Under the precondition
    every input entry is a real number, so the kernel's result is the specified array of its arguments (the addition
    formula joins its eight products to the four sinusoids); the reference's result is the specified array of its
    own arguments, which are the kernel's. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hR : ∀ c, Cert.KernelIdeal.Result.AllReal m c := fun c =>
    Cert.Pre_finite_inputs.Finite.real_of_pre _ _ _ _ _ _ _ _ _ (hpre c)
  refine ⟨fun c => Cert.KernelIdeal.Result.spec m c, Cert.KernelIdeal.Result.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_is_result]
  obtain ⟨e0, e1, e2, e3, e4, e5, e6, e7, e8⟩ := hagree c
  rw [e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
